-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S32 : Shape := ⟨1, ![32]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x256x56x56 .f32) (main_arg1 : FVec F S32 .f32) (main_arg2 : FVec F S32 .f32) (main_arg3 : IVec S32 32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x256x56x56 : Shape := ⟨4, ![32, 256, 56, 56]⟩
abbrev S32 : Shape := ⟨1, ![32]⟩
abbrev S32x256x1x1 : Shape := ⟨4, ![32, 256, 1, 1]⟩
abbrev S1x256x56x56 : Shape := ⟨4, ![1, 256, 56, 56]⟩
abbrev S1x256x1x1 : Shape := ⟨4, ![1, 256, 1, 1]⟩
abbrev S1x256x56 : Shape := ⟨3, ![1, 256, 56]⟩
abbrev S1x256x56x1 : Shape := ⟨4, ![1, 256, 56, 1]⟩
abbrev S1x256x1 : Shape := ⟨3, ![1, 256, 1]⟩
abbrev S32x256 : Shape := ⟨2, ![32, 256]⟩
abbrev S1 : Shape := ⟨1, ![1]⟩
abbrev S31 : Shape := ⟨1, ![31]⟩
abbrev S_ : Shape := ⟨0, ![]⟩
abbrev S256 : Shape := ⟨1, ![256]⟩
abbrev S32x1 : Shape := ⟨2, ![32, 1]⟩
abbrev S256x1 : Shape := ⟨2, ![256, 1]⟩
abbrev S1x1 : Shape := ⟨2, ![1, 1]⟩
abbrev S256x32 : Shape := ⟨2, ![256, 32]⟩
abbrev S32x32 : Shape := ⟨2, ![32, 32]⟩
abbrev S1x32 : Shape := ⟨2, ![1, 32]⟩

abbrev nBuf : Space → Nat
  | .hbm => 116
  | .vmem => 14
  | .smem => 0
  | _ => 0

abbrev bufTy : (tb : Table) → Fin (tcTables nBuf tb) → BufTy
  | .hbm, ⟨0, _⟩ => ⟨S32x256x56x56, .f32⟩
  | .hbm, ⟨1, _⟩ => ⟨S32, .f32⟩
  | .hbm, ⟨2, _⟩ => ⟨S32, .f32⟩
  | .hbm, ⟨3, _⟩ => ⟨S32, .i32⟩
  | .hbm, ⟨4, _⟩ => ⟨S32x256x1x1, .f32⟩
  | .hbm, ⟨5, _⟩ => ⟨S32x256x1x1, .f32⟩
  | .hbm, ⟨6, _⟩ => ⟨S32x256, .f32⟩
  | .hbm, ⟨7, _⟩ => ⟨S32x256, .f32⟩
  | .hbm, ⟨8, _⟩ => ⟨S32, .i32⟩
  | .hbm, ⟨9, _⟩ => ⟨S1, .i32⟩
  | .hbm, ⟨10, _⟩ => ⟨S31, .i32⟩
  | .hbm, ⟨11, _⟩ => ⟨S32, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S32, .i32⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S_, .i32⟩
  | .hbm, ⟨20, _⟩ => ⟨S256, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S32x1, .i32⟩
  | .hbm, ⟨29, _⟩ => ⟨S_, .i32⟩
  | .hbm, ⟨30, _⟩ => ⟨S32, .i32⟩
  | .hbm, ⟨31, _⟩ => ⟨S256, .i32⟩
  | .hbm, ⟨32, _⟩ => ⟨S_, .i32⟩
  | .hbm, ⟨33, _⟩ => ⟨S_, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256, .i32⟩
  | .hbm, ⟨45, _⟩ => ⟨S256x1, .i32⟩
  | .hbm, ⟨46, _⟩ => ⟨S1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S1x1, .i32⟩
  | .hbm, ⟨51, _⟩ => ⟨S256x1, .i32⟩
  | .hbm, ⟨52, _⟩ => ⟨S256x1, .i1⟩
  | .hbm, ⟨53, _⟩ => ⟨S256x1, .i1⟩
  | .hbm, ⟨54, _⟩ => ⟨S_, .i1⟩
  | .hbm, ⟨55, _⟩ => ⟨S256, .i1⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S256x32, .f32⟩
  | .hbm, ⟨61, _⟩ => ⟨S_, .f32⟩
  | .hbm, ⟨62, _⟩ => ⟨S32x32, .f32⟩
  | .hbm, ⟨63, _⟩ => ⟨S256x1, .i32⟩
  | .hbm, ⟨64, _⟩ => ⟨S32x32, .f32⟩
  | .hbm, ⟨65, _⟩ => ⟨S32x32, .f32⟩
  | .hbm, ⟨66, _⟩ => ⟨S256x32, .f32⟩
  | .hbm, ⟨67, _⟩ => ⟨S_, .f32⟩
  | .hbm, ⟨68, _⟩ => ⟨S32x32, .f32⟩
  | .hbm, ⟨69, _⟩ => ⟨S256x1, .i32⟩
  | .hbm, ⟨70, _⟩ => ⟨S32x32, .f32⟩
  | .hbm, ⟨71, _⟩ => ⟨S32x32, .f32⟩
  | .hbm, ⟨72, _⟩ => ⟨S_, .i32⟩
  | .hbm, ⟨73, _⟩ => ⟨S32, .i32⟩
  | .hbm, ⟨74, _⟩ => ⟨S32, .i32⟩
  | .hbm, ⟨75, _⟩ => ⟨S32, .f32⟩
  | .hbm, ⟨76, _⟩ => ⟨S1x32, .f32⟩
  | .hbm, ⟨77, _⟩ => ⟨S32x32, .f32⟩
  | .hbm, ⟨78, _⟩ => ⟨S32x32, .f32⟩
  | .hbm, ⟨79, _⟩ => ⟨S1x32, .f32⟩
  | .hbm, ⟨80, _⟩ => ⟨S32x32, .f32⟩
  | .hbm, ⟨81, _⟩ => ⟨S32x32, .f32⟩
  | .hbm, ⟨82, _⟩ => ⟨S32x32, .f32⟩
  | .hbm, ⟨83, _⟩ => ⟨S32x32, .f32⟩
  | .hbm, ⟨84, _⟩ => ⟨S_, .f32⟩
  | .hbm, ⟨85, _⟩ => ⟨S32x32, .f32⟩
  | .hbm, ⟨86, _⟩ => ⟨S32x32, .f32⟩
  | .hbm, ⟨87, _⟩ => ⟨S32x32, .f32⟩
  | .hbm, ⟨88, _⟩ => ⟨S1x32, .f32⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S1x32, .f32⟩
  | .hbm, ⟨93, _⟩ => ⟨S32x32, .f32⟩
  | .hbm, ⟨94, _⟩ => ⟨S32x32, .f32⟩
  | .hbm, ⟨95, _⟩ => ⟨S_, .i32⟩
  | .hbm, ⟨96, _⟩ => ⟨S256, .i32⟩
  | .hbm, ⟨97, _⟩ => ⟨S256, .i1⟩
  | .hbm, ⟨98, _⟩ => ⟨S_, .i32⟩
  | .hbm, ⟨99, _⟩ => ⟨S256, .i32⟩
  | .hbm, ⟨100, _⟩ => ⟨S256, .i32⟩
  | .hbm, ⟨101, _⟩ => ⟨S256, .i32⟩
  | .hbm, ⟨102, _⟩ => ⟨S256x1, .i32⟩
  | .hbm, ⟨103, _⟩ => ⟨S32x256, .f32⟩
  | .hbm, ⟨104, _⟩ => ⟨S32x256x1x1, .f32⟩
  | .hbm, ⟨105, _⟩ => ⟨S_, .i32⟩
  | .hbm, ⟨106, _⟩ => ⟨S256, .i32⟩
  | .hbm, ⟨107, _⟩ => ⟨S256, .i1⟩
  | .hbm, ⟨108, _⟩ => ⟨S_, .i32⟩
  | .hbm, ⟨109, _⟩ => ⟨S256, .i32⟩
  | .hbm, ⟨110, _⟩ => ⟨S256, .i32⟩
  | .hbm, ⟨111, _⟩ => ⟨S256, .i32⟩
  | .hbm, ⟨112, _⟩ => ⟨S256x1, .i32⟩
  | .hbm, ⟨113, _⟩ => ⟨S32x256, .f32⟩
  | .hbm, ⟨114, _⟩ => ⟨S32x256x1x1, .f32⟩
  | .hbm, ⟨115, _⟩ => ⟨S32x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x1x1, .f32⟩
  | .local _ .vmem, ⟨3, _⟩ => ⟨S1x256x1x1, .f32⟩
  | .local _ .vmem, ⟨4, _⟩ => ⟨S1x256x1x1, .f32⟩
  | .local _ .vmem, ⟨5, _⟩ => ⟨S1x256x1x1, .f32⟩
  | .local _ .vmem, ⟨6, _⟩ => ⟨S1x256x56x56, .f32⟩
  | .local _ .vmem, ⟨7, _⟩ => ⟨S1x256x56x56, .f32⟩
  | .local _ .vmem, ⟨8, _⟩ => ⟨S1x256x1x1, .f32⟩
  | .local _ .vmem, ⟨9, _⟩ => ⟨S1x256x1x1, .f32⟩
  | .local _ .vmem, ⟨10, _⟩ => ⟨S1x256x1x1, .f32⟩
  | .local _ .vmem, ⟨11, _⟩ => ⟨S1x256x1x1, .f32⟩
  | .local _ .vmem, ⟨12, _⟩ => ⟨S1x256x56x56, .f32⟩
  | .local _ .vmem, ⟨13, _⟩ => ⟨S1x256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_call1_call0_c : Ref sig .tc := ⟨.hbm, 16, rfl⟩
abbrev main_call1_call0_v0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_call2_call0_c : Ref sig .tc := ⟨.hbm, 32, rfl⟩
abbrev main_call2_call0_v0 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_c_4 : Ref sig .tc := ⟨.hbm, 57, rfl⟩
abbrev main_call3_v14 : Ref sig .tc := ⟨.hbm, 58, rfl⟩
abbrev main_v20 : Ref sig .tc := ⟨.hbm, 59, rfl⟩
abbrev main_v21 : Ref sig .tc := ⟨.hbm, 60, rfl⟩
abbrev main_cst : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_6 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_7 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_8 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_9 : Ref sig .tc := ⟨.hbm, 95, rfl⟩
abbrev main_v52 : Ref sig .tc := ⟨.hbm, 96, rfl⟩
abbrev main_v53 : Ref sig .tc := ⟨.hbm, 97, rfl⟩
abbrev main_c_10 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_11 : Ref sig .tc := ⟨.hbm, 105, rfl⟩
abbrev main_v60 : Ref sig .tc := ⟨.hbm, 106, rfl⟩
abbrev main_v61 : Ref sig .tc := ⟨.hbm, 107, rfl⟩
abbrev main_c_12 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256x56x56_S1x256x56x56_0_0_0_0 : ∀ a, (![0, 0, 0, 0] : Fin 4 → Nat) a + S1x256x56x56.size a ≤ S1x256x56x56.size a
  h_S1x256x56x56 : 0 < S1x256x56x56.numel
  reduces_S1x256x56x56_S1x256x56 : S1x256x56x56.Reduces [3] S1x256x56
  shapeCasts_S1x256x56_S1x256x56x1 : S1x256x56.ShapeCasts S1x256x56x1
  reduces_S1x256x56x1_S1x256x1 : S1x256x56x1.Reduces [2] S1x256x1
  shapeCasts_S1x256x1_S1x256x1x1 : S1x256x1.ShapeCasts S1x256x1x1
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S32x256x1x1_S32x256 : S32x256x1x1.ShapeCasts S32x256
  slices_S32_S1_31 : S32.Slices ![31] S1
  slices_S32_S31_0 : S32.Slices ![0] S31
  concatenates_S1_S31_S32_d0 : Shape.Concatenates [S1, S31] S32 0
  bcast_S_S1 : S_.BroadcastsInDim S1 (![] : Fin 0 → Fin S1.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S256 : S_.BroadcastsInDim S256 (![] : Fin 0 → Fin S256.rank)
  bcast_S_S32 : S_.BroadcastsInDim S32 (![] : Fin 0 → Fin S32.rank)
  bcast_S32_S32x1_0 : S32.BroadcastsInDim S32x1 (![0] : Fin 1 → Fin S32x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  transposes_S32x256_S256x32_1_0 : S32x256.Transposes [1, 0] S256x32
  bcast_S_S32x32 : S_.BroadcastsInDim S32x32 (![] : Fin 0 → Fin S32x32.rank)
  transposes_S32x32_S32x32_1_0 : S32x32.Transposes [1, 0] S32x32
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  shapeCasts_S32x256_S32x256x1x1 : S32x256.ShapeCasts S32x256x1x1
  shapeCasts_S1x256x1x1_S1x256x1x1 : S1x256x1x1.ShapeCasts S1x256x1x1
  broadcasts_S1x256x1x1_S1x256x56x56 : S1x256x1x1.Broadcasts S1x256x56x56
  scatter_S32_S1_S__n_0_0_0_wf : ScatterDims.WF S32 S1 S_ [] [0] [0] 0
  scatter_S256_S32x1_S32_n_0_0_1_wf : ScatterDims.WF S256 S32x1 S32 [] [0] [0] 1
  gather_S32_S256x1_S256_n_0_n_n_0_1_1_wf : GatherDims.WF S32 S256x1 S256 [] [0] [] [0] [] 1 ![1]
  scatter_S32x32_S256x1_S256x32_1_0_0_1_wf : ScatterDims.WF S32x32 S256x1 S256x32 [1] [0] [0] 1
  gather_S32x32_S256x1_S32x256_0_1_n_n_1_1_321_wf : GatherDims.WF S32x32 S256x1 S32x256 [0] [1] [] [1] [] 1 ![32, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S32x256x56x56.size a
  hwx0_0 : ∀ i : grid0.Coords, EltTy.bits .f32 = 32 ∨ (Rect.block (s := S32x256x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S32x256x1x1.size a
  hwx0_1 : ∀ i : grid0.Coords, EltTy.bits .f32 = 32 ∨ (Rect.block (s := S32x256x1x1) S1x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1x1.size a ≤ S32x256x1x1.size a
  hwx0_2 : ∀ i : grid0.Coords, EltTy.bits .f32 = 32 ∨ (Rect.block (s := S32x256x1x1) S1x256x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S32x256x56x56.size a
  hwx1_0 : ∀ i : grid1.Coords, EltTy.bits .f32 = 32 ∨ (Rect.block (s := S32x256x56x56) S1x256x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S32x256x1x1.size a
  hwx1_1 : ∀ i : grid1.Coords, EltTy.bits .f32 = 32 ∨ (Rect.block (s := S32x256x1x1) S1x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1x1.size a ≤ S32x256x1x1.size a
  hwx1_2 : ∀ i : grid1.Coords, EltTy.bits .f32 = 32 ∨ (Rect.block (s := S32x256x1x1) S1x256x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x56x56.size a ≤ S32x256x56x56.size a
  hwx1_3 : ∀ i : grid1.Coords, EltTy.bits .f32 = 32 ∨ (Rect.block (s := S32x256x56x56) S1x256x56x56.size (cc1_transform_3 i) (hinb1_3 i)).WholeWords (EltTy.packing .f32)

variable [Facts₀]

def scatter_S32_S1_S__n_0_0_0 : ScatterDims S32 S1 S_ where
  updateWindowDims := []
  insertedWindowDims := [0]
  scatterDimsToOperandDims := [0]
  indexVectorDim := 0
  wf := scatter_S32_S1_S__n_0_0_0_wf
def scatter_S256_S32x1_S32_n_0_0_1 : ScatterDims S256 S32x1 S32 where
  updateWindowDims := []
  insertedWindowDims := [0]
  scatterDimsToOperandDims := [0]
  indexVectorDim := 1
  wf := scatter_S256_S32x1_S32_n_0_0_1_wf
def gather_S32_S256x1_S256_n_0_n_n_0_1_1 : GatherDims S32 S256x1 S256 where
  offsetDims := []
  collapsedSliceDims := [0]
  operandBatchingDims := []
  startIndicesBatchingDims := []
  startIndexMap := [0]
  indexVectorDim := 1
  sliceSizes := ![1]
  wf := gather_S32_S256x1_S256_n_0_n_n_0_1_1_wf
def scatter_S32x32_S256x1_S256x32_1_0_0_1 : ScatterDims S32x32 S256x1 S256x32 where
  updateWindowDims := [1]
  insertedWindowDims := [0]
  scatterDimsToOperandDims := [0]
  indexVectorDim := 1
  wf := scatter_S32x32_S256x1_S256x32_1_0_0_1_wf
def gather_S32x32_S256x1_S32x256_0_1_n_n_1_1_321 : GatherDims S32x32 S256x1 S32x256 where
  offsetDims := [0]
  collapsedSliceDims := [1]
  operandBatchingDims := []
  startIndicesBatchingDims := []
  startIndexMap := [1]
  indexVectorDim := 1
  sliceSizes := ![32, 1]
  wf := gather_S32x32_S256x1_S32x256_0_1_n_n_1_1_321_wf

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x256x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x256x56x56 : Shape := ⟨4, ![32, 256, 56, 56]⟩
abbrev S32 : Shape := ⟨1, ![32]⟩
abbrev S1 : Shape := ⟨1, ![1]⟩
abbrev S31 : Shape := ⟨1, ![31]⟩
abbrev S_ : Shape := ⟨0, ![]⟩
abbrev S256 : Shape := ⟨1, ![256]⟩
abbrev S32x1 : Shape := ⟨2, ![32, 1]⟩
abbrev S256x1 : Shape := ⟨2, ![256, 1]⟩
abbrev S1x1 : Shape := ⟨2, ![1, 1]⟩
abbrev S32x256 : Shape := ⟨2, ![32, 256]⟩
abbrev S256x32 : Shape := ⟨2, ![256, 32]⟩
abbrev S32x32 : Shape := ⟨2, ![32, 32]⟩
abbrev S1x32 : Shape := ⟨2, ![1, 32]⟩
abbrev S32x256x1x1 : Shape := ⟨4, ![32, 256, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S32, .f32⟩
  | .hbm, ⟨2, _⟩ => ⟨S32, .f32⟩
  | .hbm, ⟨3, _⟩ => ⟨S32, .i32⟩
  | .hbm, ⟨4, _⟩ => ⟨S32, .i32⟩
  | .hbm, ⟨5, _⟩ => ⟨S1, .i32⟩
  | .hbm, ⟨6, _⟩ => ⟨S31, .i32⟩
  | .hbm, ⟨7, _⟩ => ⟨S32, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S_, .i32⟩
  | .hbm, ⟨16, _⟩ => ⟨S256, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S_, .i32⟩
  | .hbm, ⟨26, _⟩ => ⟨S32, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S_, .f32⟩
  | .hbm, ⟨57, _⟩ => ⟨S32x256, .f32⟩
  | .hbm, ⟨58, _⟩ => ⟨S32x256x56x56, .f32⟩
  | .hbm, ⟨59, _⟩ => ⟨S_, .f32⟩
  | .hbm, ⟨60, _⟩ => ⟨S32x256, .f32⟩
  | .hbm, ⟨61, _⟩ => ⟨S256x32, .f32⟩
  | .hbm, ⟨62, _⟩ => ⟨S_, .f32⟩
  | .hbm, ⟨63, _⟩ => ⟨S32x32, .f32⟩
  | .hbm, ⟨64, _⟩ => ⟨S256x1, .i32⟩
  | .hbm, ⟨65, _⟩ => ⟨S32x32, .f32⟩
  | .hbm, ⟨66, _⟩ => ⟨S32x32, .f32⟩
  | .hbm, ⟨67, _⟩ => ⟨S256x32, .f32⟩
  | .hbm, ⟨68, _⟩ => ⟨S_, .f32⟩
  | .hbm, ⟨69, _⟩ => ⟨S32x32, .f32⟩
  | .hbm, ⟨70, _⟩ => ⟨S256x1, .i32⟩
  | .hbm, ⟨71, _⟩ => ⟨S32x32, .f32⟩
  | .hbm, ⟨72, _⟩ => ⟨S32x32, .f32⟩
  | .hbm, ⟨73, _⟩ => ⟨S_, .i32⟩
  | .hbm, ⟨74, _⟩ => ⟨S32, .i32⟩
  | .hbm, ⟨75, _⟩ => ⟨S32, .i32⟩
  | .hbm, ⟨76, _⟩ => ⟨S32, .f32⟩
  | .hbm, ⟨77, _⟩ => ⟨S1x32, .f32⟩
  | .hbm, ⟨78, _⟩ => ⟨S32x32, .f32⟩
  | .hbm, ⟨79, _⟩ => ⟨S32x32, .f32⟩
  | .hbm, ⟨80, _⟩ => ⟨S1x32, .f32⟩
  | .hbm, ⟨81, _⟩ => ⟨S32x32, .f32⟩
  | .hbm, ⟨82, _⟩ => ⟨S32x32, .f32⟩
  | .hbm, ⟨83, _⟩ => ⟨S32x32, .f32⟩
  | .hbm, ⟨84, _⟩ => ⟨S32x32, .f32⟩
  | .hbm, ⟨85, _⟩ => ⟨S_, .f32⟩
  | .hbm, ⟨86, _⟩ => ⟨S32x32, .f32⟩
  | .hbm, ⟨87, _⟩ => ⟨S32x32, .f32⟩
  | .hbm, ⟨88, _⟩ => ⟨S32x32, .f32⟩
  | .hbm, ⟨89, _⟩ => ⟨S1x32, .f32⟩
  | .hbm, ⟨90, _⟩ => ⟨S32x32, .f32⟩
  | .hbm, ⟨91, _⟩ => ⟨S32x32, .f32⟩
  | .hbm, ⟨92, _⟩ => ⟨S32x32, .f32⟩
  | .hbm, ⟨93, _⟩ => ⟨S1x32, .f32⟩
  | .hbm, ⟨94, _⟩ => ⟨S32x32, .f32⟩
  | .hbm, ⟨95, _⟩ => ⟨S32x32, .f32⟩
  | .hbm, ⟨96, _⟩ => ⟨S_, .i32⟩
  | .hbm, ⟨97, _⟩ => ⟨S256, .i32⟩
  | .hbm, ⟨98, _⟩ => ⟨S256, .i1⟩
  | .hbm, ⟨99, _⟩ => ⟨S_, .i32⟩
  | .hbm, ⟨100, _⟩ => ⟨S256, .i32⟩
  | .hbm, ⟨101, _⟩ => ⟨S256, .i32⟩
  | .hbm, ⟨102, _⟩ => ⟨S256, .i32⟩
  | .hbm, ⟨103, _⟩ => ⟨S256x1, .i32⟩
  | .hbm, ⟨104, _⟩ => ⟨S32x256, .f32⟩
  | .hbm, ⟨105, _⟩ => ⟨S32x256x1x1, .f32⟩
  | .hbm, ⟨106, _⟩ => ⟨S_, .i32⟩
  | .hbm, ⟨107, _⟩ => ⟨S256, .i32⟩
  | .hbm, ⟨108, _⟩ => ⟨S256, .i1⟩
  | .hbm, ⟨109, _⟩ => ⟨S_, .i32⟩
  | .hbm, ⟨110, _⟩ => ⟨S256, .i32⟩
  | .hbm, ⟨111, _⟩ => ⟨S256, .i32⟩
  | .hbm, ⟨112, _⟩ => ⟨S256, .i32⟩
  | .hbm, ⟨113, _⟩ => ⟨S256x1, .i32⟩
  | .hbm, ⟨114, _⟩ => ⟨S32x256, .f32⟩
  | .hbm, ⟨115, _⟩ => ⟨S32x256x1x1, .f32⟩
  | .hbm, ⟨116, _⟩ => ⟨S32x256x56x56, .f32⟩
  | .hbm, ⟨117, _⟩ => ⟨S32x256x56x56, .f32⟩
  | .hbm, ⟨118, _⟩ => ⟨S32x256x56x56, .f32⟩
  | .hbm, ⟨119, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_cst : Ref sig .tc := ⟨.hbm, 56, rfl⟩
abbrev main_v18 : Ref sig .tc := ⟨.hbm, 57, rfl⟩
abbrev main_v19 : Ref sig .tc := ⟨.hbm, 58, rfl⟩
abbrev main_cst_6 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_8 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c_9 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_10 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_11 : Ref sig .tc := ⟨.hbm, 96, rfl⟩
abbrev main_v52 : Ref sig .tc := ⟨.hbm, 97, rfl⟩
abbrev main_v53 : Ref sig .tc := ⟨.hbm, 98, rfl⟩
abbrev main_c_12 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_13 : Ref sig .tc := ⟨.hbm, 106, rfl⟩
abbrev main_v60 : Ref sig .tc := ⟨.hbm, 107, rfl⟩
abbrev main_v61 : Ref sig .tc := ⟨.hbm, 108, rfl⟩
abbrev main_c_14 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩

abbrev nD : Nat := 1
abbrev τ : Topo := Topo.v7x

variable {F : FTy → Type} [FloatOps F]

class Facts₀ : Prop where
  slices_S32_S1_31 : S32.Slices ![31] S1
  slices_S32_S31_0 : S32.Slices ![0] S31
  concatenates_S1_S31_S32_d0 : Shape.Concatenates [S1, S31] S32 0
  bcast_S_S1 : S_.BroadcastsInDim S1 (![] : Fin 0 → Fin S1.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S256 : S_.BroadcastsInDim S256 (![] : Fin 0 → Fin S256.rank)
  bcast_S_S32 : S_.BroadcastsInDim S32 (![] : Fin 0 → Fin S32.rank)
  bcast_S32_S32x1_0 : S32.BroadcastsInDim S32x1 (![0] : Fin 1 → Fin S32x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  reducesTo_S32x256x56x56_S32x256_d2_3 : S32x256x56x56.ReducesTo [2, 3] S32x256
  transposes_S32x256_S256x32_1_0 : S32x256.Transposes [1, 0] S256x32
  bcast_S_S32x32 : S_.BroadcastsInDim S32x32 (![] : Fin 0 → Fin S32x32.rank)
  transposes_S32x32_S32x32_1_0 : S32x32.Transposes [1, 0] S32x32
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S32x256_S32x256x1x1_0_1 : S32x256.BroadcastsInDim S32x256x1x1 (![0, 1] : Fin 2 → Fin S32x256x1x1.rank)
  bcast_S32x256x1x1_S32x256x56x56_0_1_2_3 : S32x256x1x1.BroadcastsInDim S32x256x56x56 (![0, 1, 2, 3] : Fin 4 → Fin S32x256x56x56.rank)
  scatter_S32_S1_S__n_0_0_0_wf : ScatterDims.WF S32 S1 S_ [] [0] [0] 0
  scatter_S256_S32x1_S32_n_0_0_1_wf : ScatterDims.WF S256 S32x1 S32 [] [0] [0] 1
  gather_S32_S256x1_S256_n_0_n_n_0_1_1_wf : GatherDims.WF S32 S256x1 S256 [] [0] [] [0] [] 1 ![1]
  scatter_S32x32_S256x1_S256x32_1_0_0_1_wf : ScatterDims.WF S32x32 S256x1 S256x32 [1] [0] [0] 1
  gather_S32x32_S256x1_S32x256_0_1_n_n_1_1_321_wf : GatherDims.WF S32x32 S256x1 S32x256 [0] [1] [] [1] [] 1 ![32, 1]

variable [Facts₀]

def scatter_S32_S1_S__n_0_0_0 : ScatterDims S32 S1 S_ where
  updateWindowDims := []
  insertedWindowDims := [0]
  scatterDimsToOperandDims := [0]
  indexVectorDim := 0
  wf := scatter_S32_S1_S__n_0_0_0_wf
def scatter_S256_S32x1_S32_n_0_0_1 : ScatterDims S256 S32x1 S32 where
  updateWindowDims := []
  insertedWindowDims := [0]
  scatterDimsToOperandDims := [0]
  indexVectorDim := 1
  wf := scatter_S256_S32x1_S32_n_0_0_1_wf
def gather_S32_S256x1_S256_n_0_n_n_0_1_1 : GatherDims S32 S256x1 S256 where
  offsetDims := []
  collapsedSliceDims := [0]
  operandBatchingDims := []
  startIndicesBatchingDims := []
  startIndexMap := [0]
  indexVectorDim := 1
  sliceSizes := ![1]
  wf := gather_S32_S256x1_S256_n_0_n_n_0_1_1_wf
def scatter_S32x32_S256x1_S256x32_1_0_0_1 : ScatterDims S32x32 S256x1 S256x32 where
  updateWindowDims := [1]
  insertedWindowDims := [0]
  scatterDimsToOperandDims := [0]
  indexVectorDim := 1
  wf := scatter_S32x32_S256x1_S256x32_1_0_0_1_wf
def gather_S32x32_S256x1_S32x256_0_1_n_n_1_1_321 : GatherDims S32x32 S256x1 S32x256 where
  offsetDims := [0]
  collapsedSliceDims := [1]
  operandBatchingDims := []
  startIndicesBatchingDims := []
  startIndexMap := [1]
  indexVectorDim := 1
  sliceSizes := ![32, 1]
  wf := gather_S32x32_S256x1_S32x256_0_1_n_n_1_1_321_wf

class Facts : Prop extends Facts₀ where

variable [Facts]
-- ==== Proof.KernelRun.lean ====
/-
  The idealised kernel program's run with its RESULT named.

  The program is two kernel launches among stretches of host operations.  The generated frame certificate folds the
  buffer contents through the program, boundary by boundary: `W0` at launch, `W1` after the first launch (its two
  output arrays at what the 32 grid points wrote back), `W2 … W10` after each stretch of host operations, `W11` after
  the second launch.  Its closing theorem reads only the four argument arrays off `W11`.  Here the same run is read
  at the result array as well: every weakly fair execution ends with the result buffer at `W11`'s contents, which are
  the second launch's output array after its last grid point.
-/
import proofs.«131879_j10307921511080_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the second launch the result buffer holds that launch's output array as its last grid point leaves it. -/
theorem result_contents (c : Dev nD) :
    W11 m ρ c (Proc.devRef .tc main_v68) = (dat1 (V10 m ρ) c).arrAt 3 cfg1.N :=
  W11_arr m ρ c 3

/-- After the first launch its two output arrays hold what its grid points wrote back. -/
theorem sums_contents (c : Dev nD) :
    W1 m ρ c (Proc.devRef .tc main_v0_0) = (dat0 (V0 m ρ) c).arrAt 1 cfg0.N :=
  W1_arr m ρ c 1
theorem sumsqs_contents (c : Dev nD) :
    W1 m ρ c (Proc.devRef .tc main_v0_1) = (dat0 (V0 m ρ) c).arrAt 2 cfg0.N :=
  W1_arr m ρ c 2

-- the launch theorem's implicit arguments are found by unifying its conclusion with this one, which takes unfolding
-- plain definitions in a metavariable's type
set_option backward.isDefEq.respectTransparency.types false in
/-- From any memory with zero counters every weakly fair execution of the program terminates without a fault, with the
    result buffer at the last boundary's contents and the four argument arrays as launched: the segments' run, the
    last thread state read against the final state at the result buffer and at each argument. -/
theorem run_result : θ_run defs (onTc (τ := τ) (main (F := F))) ⟨m, fun _ => 0, ρ⟩ (fun r => ∀ c : Dev nD,
      r.2.mem ((c.tc : Thread nD τ).loc main_v68) = W11 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v68 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.Run

end
-- ==== Proof.Spec.lean ====
/-
  The host-side arithmetic both programs share, as pure functions of arrays.

  Ragged-group normalisation: the 256 channels are cut into 32 consecutive groups whose sizes `gs` are an input.
  Both programs do the same bookkeeping on the host, operation for operation:

  * `groupOf gs`            : the channel → group table (a roll of the sizes, a cumulative sum giving each group's
                               first channel, a mark scattered at each first channel, a second cumulative sum, minus one,
                               and a `take` of 0 … 31 at those positions);
  * `groupSum seg s`        : per (sample, group) the sum of the per-channel numbers `s` over the group's channels
                               (a scatter-add along the table between two transposes);
  * `groupScale`, `groupShift` : from the group sums of the plane sums and of the plane sums of squares, with
                               `count = gs · 3136` elements per group:  mean = sum / count,  var = sumsq / count − mean²,
                               scale = γ · rsqrt(var + ε),  shift = β − mean · scale   (ε is the binary32 word 0x3727C5AC);
  * `perChannel seg t`      : a per-(sample, group) table gathered back to one number per (sample, channel);
  * `channelScale`, `channelShift` : the two composed.

  They differ only in what they are applied to and in what is done with the result; nothing below is ever opened in
  the proof: the two programs are shown to apply these same functions to equal arguments.
-/
import proofs.«131879_j10307921511080_1_alg».proof.KernelIdeal

noncomputable section

namespace Cert.RaggedNorm

open Idealize.ShloMosaic Cert.KernelIdeal Cert.KernelIdeal.Facts₀

variable {F : FTy → Type} [FloatOps F] [Cert.KernelIdeal.Facts]

/-- A rank-1 integer array filled with one word. -/
def fill32 (k : BitVec 32) : Vec F S32 .i32 := broadcastInDim S32 ![] bcast_S_S32 (constantI S_ 32 k)
/-- The same of length 256. -/
def fill256 (k : BitVec 32) : Vec F S256 .i32 := broadcastInDim S256 ![] bcast_S_S256 (constantI S_ 32 k)

/-- The start value of the integer cumulative sums. -/
def zeroWord : Vec F S_ .i32 := broadcastInDim S_ ![] bcast_S_S_ (constantI S_ 32 0#32)

/-- Each group's first channel: the sizes rolled right by one, the first entry set to 0, then summed cumulatively. -/
def groupStart (gs : Vec F S32 .i32) : Vec F S32 .i32 :=
  Host.reduceWindow IntOp.addi ![32] ![1] ![31] ![0]
    (Host.scatter scatter_S32_S1_S__n_0_0_0 (fun _ b => b)
      (concatenate S32 0 [⟨S1, extractStridedSlice S1 ![31] gs slices_S32_S1_31⟩, ⟨S31, extractStridedSlice S31 ![0] gs slices_S32_S31_0⟩]
        concatenates_S1_S31_S32_d0)
      (broadcastInDim S1 ![] bcast_S_S1 (constantI S_ 32 0#32)) (constantI S_ 32 0#32))
    (zeroWord (F := F)) reduceWindows_S32_S32_w32s1p31_0 h_S_

/-- A possibly negative position made non-negative by adding the axis length. -/
def wrap32 (n : BitVec 32) (p : Vec F S32 .i32) : Vec F S32 .i32 :=
  select (cmpi .slt p (fill32 (F := F) 0#32)) (addi p (fill32 (F := F) n)) p
/-- The same on arrays of length 256. -/
def wrap256 (n : BitVec 32) (p : Vec F S256 .i32) : Vec F S256 .i32 :=
  select (cmpi .slt p (fill256 (F := F) 0#32)) (addi p (fill256 (F := F) n)) p

/-- For each channel the number of groups that start at or before it, minus one: the group's position. -/
def groupPos (gs : Vec F S32 .i32) : Vec F S256 .i32 :=
  subi
    (Host.reduceWindow IntOp.addi ![256] ![1] ![255] ![0]
      (Host.scatter scatter_S256_S32x1_S32_n_0_0_1 IntOp.addi (fill256 (F := F) 0#32)
        (broadcastInDim S32x1 ![0] bcast_S32_S32x1_0 (wrap32 256#32 (groupStart gs))) (fill32 (F := F) 1#32))
      (zeroWord (F := F)) reduceWindows_S256_S256_w256s1p255_0 h_S_)
    (fill256 (F := F) 1#32)

/-- `take` of a table of 32 words at 256 positions: out-of-range positions give the fill word. -/
def take32 (table : Vec F S32 .i32) (pos : Vec F S256 .i32) : Vec F S256 .i32 :=
  select
    (Host.reduce IntOp.andi
      (andi
        (cmpi .sge (broadcastInDim S256x1 ![0] bcast_S256_S256x1_0 (wrap256 32#32 pos))
          (broadcastInDim S256x1 ![] bcast_S_S256x1 (constantI S_ 32 0#32)))
        (cmpi .sle (broadcastInDim S256x1 ![0] bcast_S256_S256x1_0 (wrap256 32#32 pos))
          (broadcastInDim S256x1 ![0, 1] bcast_S1x1_S256x1_0_1 (broadcastInDim S1x1 ![1] bcast_S1_S1x1_1 (constantI S1 32 31#32)))))
      (constantI S_ 1 1#1) reducesTo_S256x1_S256_d1 h_S_)
    (Host.gather gather_S32_S256x1_S256_n_0_n_n_0_1_1 table (broadcastInDim S256x1 ![0] bcast_S256_S256x1_0 (wrap256 32#32 pos)))
    (fill256 (F := F) 2147483648#32)

/-- The channel → group table. -/
def groupOf (gs : Vec F S32 .i32) : Vec F S256 .i32 :=
  take32 (iotaInDim S32 32 0) (groupPos gs)

/-- Per (sample, group) the sum over the group's channels of the per-(sample, channel) numbers `s`. -/
def groupSum (seg : Vec F S256 .i32) (s : Vec F S32x256 .f32) : Vec F S32x32 .f32 :=
  transpose S32x32 [1, 0]
    (Host.scatterAdd scatter_S32x32_S256x1_S256x32_1_0_0_1
      (broadcastInDim S32x32 ![] bcast_S_S32x32 (constant S_ .f32 0x00000000#32))
      (broadcastInDim S256x1 ![0] bcast_S256_S256x1_0 seg)
      (transpose S256x32 [1, 0] s transposes_S32x256_S256x32_1_0))
    transposes_S32x32_S32x32_1_0

/-- One number per group repeated for every sample. -/
def everySample (v : Vec F S32 .f32) : Vec F S32x32 .f32 :=
  broadcastInDim S32x32 ![0, 1] bcast_S1x32_S32x32_0_1 (broadcastInDim S1x32 ![1] bcast_S32_S1x32_1 v)

/-- The number of elements of each group: its size times the 56 · 56 = 3136 positions of a plane. -/
def groupCount (gs : Vec F S32 .i32) : Vec F S32 .f32 :=
  sitofp .f32 (muli gs (fill32 (F := F) 3136#32))

/-- The group means. -/
def groupMean (seg : Vec F S256 .i32) (s : Vec F S32x256 .f32) (gs : Vec F S32 .i32) : Vec F S32x32 .f32 :=
  Host.divf (groupSum seg s) (everySample (groupCount gs))

/-- scale = γ · rsqrt(sumsq / count − mean² + ε). -/
def groupScale (seg : Vec F S256 .i32) (s q : Vec F S32x256 .f32) (γ : Vec F S32 .f32) (gs : Vec F S32 .i32) : Vec F S32x32 .f32 :=
  mulf (everySample γ)
    (Host.rsqrt
      (addf
        (subf (Host.divf (groupSum seg q) (everySample (groupCount gs))) (mulf (groupMean seg s gs) (groupMean seg s gs)))
        (broadcastInDim S32x32 ![] bcast_S_S32x32 (constant S_ .f32 0x3727C5AC#32))))

/-- shift = β − mean · scale. -/
def groupShift (seg : Vec F S256 .i32) (s q : Vec F S32x256 .f32) (γ β : Vec F S32 .f32) (gs : Vec F S32 .i32) : Vec F S32x32 .f32 :=
  subf (everySample β) (mulf (groupMean seg s gs) (groupScale seg s q γ gs))

/-- A per-(sample, group) table read at each channel's group. -/
def perChannel (seg : Vec F S256 .i32) (t : Vec F S32x32 .f32) : Vec F S32x256 .f32 :=
  Host.gather gather_S32x32_S256x1_S32x256_0_1_n_n_1_1_321 t (broadcastInDim S256x1 ![0] bcast_S256_S256x1_0 (wrap256 32#32 seg))

/-- The scale of every (sample, channel), from the plane sums `s` and plane sums of squares `q`. -/
def channelScale (s q : Vec F S32x256 .f32) (γ : Vec F S32 .f32) (gs : Vec F S32 .i32) : Vec F S32x256 .f32 :=
  perChannel (groupOf gs) (groupScale (groupOf gs) s q γ gs)

/-- The shift of every (sample, channel). -/
def channelShift (s q : Vec F S32x256 .f32) (γ β : Vec F S32 .f32) (gs : Vec F S32 .i32) : Vec F S32x256 .f32 :=
  perChannel (groupOf gs) (groupShift (groupOf gs) s q γ β gs)

end Cert.RaggedNorm

end
-- ==== Proof.HostFold.lean ====
/-
  The host operations between the two kernel launches, read as the shared arithmetic of Spec.lean.

  Between the launches the program runs nine stretches of host operations.  `W1` is the contents after the first
  launch, `W2 … W10` the contents after each stretch; `W10` is what the second launch finds.  Three facts are read
  off the fold:

  * after the eighth stretch the channel → group table is `groupOf` of the group sizes (a roll, a cumulative sum, a
    scatter, a second cumulative sum and a `take`, spread over stretches two to eight);
  * the ninth stretch computes, from the two reshaped output arrays of the first launch, the table and the three small
    arguments, the per-channel scale and shift and reshapes them to [32,256,1,1];
  * nothing in the nine stretches writes an argument array, and nothing after the first stretch writes the two
    reshaped arrays.

  Every fact is the fold evaluated at one buffer: each operation either writes that buffer (its function applied to
  the contents of its operands) or leaves it alone.
-/
import proofs.«131879_j10307921511080_1_alg».proof.Proof.Gen.KernelIdeal.Frame
import proofs.«131879_j10307921511080_1_alg».proof.Proof.Spec
import Idealize.ShloMosaic.Lib.StableHlo.Run

set_option maxRecDepth 16384

noncomputable section

namespace Cert.KernelIdeal.HostFold

open Idealize.ShloMosaic Idealize.ShloMosaic.TcCoe Idealize.SL.Sem Idealize.ShloMosaic.StableHlo
open Cert.KernelIdeal Cert.KernelIdeal.Gen Cert.RaggedNorm

variable {F : FTy → Type} [FloatOps F]

-- the reductions, gathers and scatters are searches over their operands' elements: the fold never looks inside them
attribute [local irreducible] Host.reduce Host.reduceWindow Host.gather Host.scatter Host.scatterAdd

/-! ## The ninth stretch, from arbitrary contents -/

set_option maxHeartbeats 1000000 in
/-- The ninth stretch leaves in the second launch's scale operand the per-channel scale, re-laid as [32,256,1,1]:
    the group statistics from the reshaped sums and sums of squares, gathered at the channel → group table. -/
theorem scale_stage (U : Valuation τ sig (Elt F)) :
    after (hostOps1_8 (F := F)) U (Proc.devRef .tc main_v59)
      = shapeCast S32x256x1x1
          (perChannel (F := F) (U (Proc.devRef .tc main_v20))
            (groupScale (U (Proc.devRef .tc main_v20)) (U (Proc.devRef .tc main_v1)) (U (Proc.devRef .tc main_v2))
              (U (Proc.devRef .tc main_arg1)) (U (Proc.devRef .tc main_arg3))))
          Facts₀.shapeCasts_S32x256_S32x256x1x1 := by
  simp only [after_cons, after_nil]
  rfl

set_option maxHeartbeats 1000000 in
/-- … and in its shift operand the per-channel shift. -/
theorem shift_stage (U : Valuation τ sig (Elt F)) :
    after (hostOps1_8 (F := F)) U (Proc.devRef .tc main_v67)
      = shapeCast S32x256x1x1
          (perChannel (F := F) (U (Proc.devRef .tc main_v20))
            (groupShift (U (Proc.devRef .tc main_v20)) (U (Proc.devRef .tc main_v1)) (U (Proc.devRef .tc main_v2))
              (U (Proc.devRef .tc main_arg1)) (U (Proc.devRef .tc main_arg2)) (U (Proc.devRef .tc main_arg3))))
          Facts₀.shapeCasts_S32x256_S32x256x1x1 := by
  simp only [after_cons, after_nil]
  rfl

/-! ### The channel → group table, stretch by stretch

Each stretch is read from ARBITRARY contents `U` (so what earlier stretches left is just `U` at a buffer), then the
stretches are chained: every stretch reads only what the one before it wrote, apart from the group sizes (an argument)
and the word list `0 … 31` written by the first stretch. -/

/-- Stretch two (the roll): the group sizes moved one place to the right, the last one coming round to the front. -/
theorem roll_stage (U : Valuation τ sig (Elt F)) :
    after (hostOps1_1 (F := F)) U (Proc.devRef .tc main_v4)
      = concatenate S32 0 [⟨S1, extractStridedSlice S1 ![31] (U (Proc.devRef .tc main_arg3)) Facts₀.slices_S32_S1_31⟩,
          ⟨S31, extractStridedSlice S31 ![0] (U (Proc.devRef .tc main_arg3)) Facts₀.slices_S32_S31_0⟩]
          Facts₀.concatenates_S1_S31_S32_d0 := by
  simp only [after_cons, after_nil]
  rfl

/-- Stretch three: a zero written over the first entry. -/
theorem first_zero_stage (U : Valuation τ sig (Elt F)) :
    after (hostOps1_2 (F := F)) U (Proc.devRef .tc main_v6)
      = Host.scatter scatter_S32_S1_S__n_0_0_0 (fun _ b => b) (U (Proc.devRef .tc main_v4))
          (broadcastInDim S1 ![] Facts₀.bcast_S_S1 (constantI S_ 32 0#32)) (constantI S_ 32 0#32) := by
  simp only [after_cons, after_nil]
  rfl

/-- Stretch four: the cumulative sum. -/
theorem starts_stage (U : Valuation τ sig (Elt F)) :
    after (hostOps1_3 (F := F)) U (Proc.devRef .tc main_v7)
      = Host.reduceWindow IntOp.addi ![32] ![1] ![31] ![0] (U (Proc.devRef .tc main_v6)) (zeroWord (F := F))
          Facts₀.reduceWindows_S32_S32_w32s1p31_0 Facts₀.h_S_ := by
  simp only [after_cons, after_nil]
  rfl

/-- Stretch five: a one added at each group's first channel (a negative start wrapped round first). -/
theorem marks_stage (U : Valuation τ sig (Elt F)) :
    after (hostOps1_4 (F := F)) U (Proc.devRef .tc main_v16)
      = Host.scatter scatter_S256_S32x1_S32_n_0_0_1 IntOp.addi (fill256 (F := F) 0#32)
          (broadcastInDim S32x1 ![0] Facts₀.bcast_S32_S32x1_0 (wrap32 (F := F) 256#32 (U (Proc.devRef .tc main_v7))))
          (fill32 (F := F) 1#32) := by
  simp only [after_cons, after_nil]
  rfl

/-- Stretch six: the second cumulative sum. -/
theorem count_stage (U : Valuation τ sig (Elt F)) :
    after (hostOps1_5 (F := F)) U (Proc.devRef .tc main_v17)
      = Host.reduceWindow IntOp.addi ![256] ![1] ![255] ![0] (U (Proc.devRef .tc main_v16)) (zeroWord (F := F))
          Facts₀.reduceWindows_S256_S256_w256s1p255_0 Facts₀.h_S_ := by
  simp only [after_cons, after_nil]
  rfl

/-- Stretch seven: minus one. -/
theorem position_stage (U : Valuation τ sig (Elt F)) :
    after (hostOps1_6 (F := F)) U (Proc.devRef .tc main_v19)
      = subi (U (Proc.devRef .tc main_v17)) (fill256 (F := F) 1#32) := by
  simp only [after_cons, after_nil]
  rfl

/-! Stretch eight is the `take` of the word list at the positions.  It is read in two parts: its first seven
    operations wrap a negative position round by 32; the other fifteen test the wrapped position against `0 … 31`,
    gather the word there and put the least integer where the test fails. -/

/-- The first seven operations: the positions, a negative one wrapped round. -/
theorem take_wrap_part (U : Valuation τ sig (Elt F)) :
    after ((hostOps1_7 (F := F)).take 7) U (Proc.devRef .tc main_call3_v4)
      = wrap256 (F := F) 32#32 (U (Proc.devRef .tc main_v19)) := by
  dsimp only [hostOps1_7, List.take]
  after_results
  rfl

/-- They do not write the word list. -/
theorem take_wrap_keeps_words (U : Valuation τ sig (Elt F)) :
    after ((hostOps1_7 (F := F)).take 7) U (Proc.devRef .tc main_v3) = U (Proc.devRef .tc main_v3) := by
  dsimp only [hostOps1_7, List.take]
  after_results

set_option maxHeartbeats 1000000 in
/-- The other fifteen, from contents whose wrapped positions are those of `pos`: the word list read at `pos`. -/
theorem take_read_part (U : Valuation τ sig (Elt F)) (pos : Vec F S256 .i32)
    (h : U (Proc.devRef .tc main_call3_v4) = wrap256 (F := F) 32#32 pos) :
    after ((hostOps1_7 (F := F)).drop 7) U (Proc.devRef .tc main_v20)
      = take32 (F := F) (U (Proc.devRef .tc main_v3)) pos := by
  dsimp only [hostOps1_7, List.drop]
  after_results
  rw [h]
  rfl

/-- Stretch eight: the `take` of the word list at the positions. -/
theorem take_stage (U : Valuation τ sig (Elt F)) :
    after (hostOps1_7 (F := F)) U (Proc.devRef .tc main_v20)
      = take32 (F := F) (U (Proc.devRef .tc main_v3)) (U (Proc.devRef .tc main_v19)) := by
  -- the stretch is its first seven operations followed by the rest
  show after ((hostOps1_7 (F := F)).drop 7) (after ((hostOps1_7 (F := F)).take 7) U) (Proc.devRef .tc main_v20) = _
  rw [take_read_part _ _ (take_wrap_part U), take_wrap_keeps_words]

/-! ## The whole fold, from the first launch's exit to the second launch's entry -/

variable (m : (ℓ : Loc nD τ sig) → Buf (Elt F) ℓ) (ρ : Dev nD → PrngReg)

/-- The first stretch does not write the group sizes. -/
theorem sizes_at_roll (c : Dev nD) : W2 m ρ c (Proc.devRef .tc main_arg3) = W1 m ρ c (Proc.devRef .tc main_arg3) := by
  simp only [after_cons, after_nil]
  rfl

/-- After the fourth stretch: each group's first channel. -/
theorem starts_contents (c : Dev nD) :
    W5 m ρ c (Proc.devRef .tc main_v7) = groupStart (F := F) (W1 m ρ c (Proc.devRef .tc main_arg3)) := by
  show after (hostOps1_3 (F := F)) (W4 m ρ c) (Proc.devRef .tc main_v7) = _
  rw [starts_stage]
  show Host.reduceWindow IntOp.addi ![32] ![1] ![31] ![0] (after (hostOps1_2 (F := F)) (W3 m ρ c) (Proc.devRef .tc main_v6)) _ _ _ = _
  rw [first_zero_stage]
  show Host.reduceWindow IntOp.addi ![32] ![1] ![31] ![0]
    (Host.scatter scatter_S32_S1_S__n_0_0_0 (fun _ b => b) (after (hostOps1_1 (F := F)) (W2 m ρ c) (Proc.devRef .tc main_v4)) _ _) _ _ _ = _
  rw [roll_stage, sizes_at_roll]
  rfl

/-- After the seventh stretch: each channel's group position. -/
theorem position_contents (c : Dev nD) :
    W8 m ρ c (Proc.devRef .tc main_v19) = groupPos (F := F) (W1 m ρ c (Proc.devRef .tc main_arg3)) := by
  show after (hostOps1_6 (F := F)) (W7 m ρ c) (Proc.devRef .tc main_v19) = _
  rw [position_stage]
  show subi (after (hostOps1_5 (F := F)) (W6 m ρ c) (Proc.devRef .tc main_v17)) _ = _
  rw [count_stage]
  show subi (Host.reduceWindow IntOp.addi ![256] ![1] ![255] ![0]
    (after (hostOps1_4 (F := F)) (W5 m ρ c) (Proc.devRef .tc main_v16)) _ _ _) _ = _
  rw [marks_stage, starts_contents]
  rfl

/-- The word list `0 … 31` written by the first stretch is still there after the seventh. -/
theorem words_contents (c : Dev nD) : W8 m ρ c (Proc.devRef .tc main_v3) = iotaInDim S32 32 0 := by
  simp only [after_cons, after_nil]
  rfl

/-- After the eighth stretch the channel → group table is `groupOf` of the group sizes as the first launch left
    them. -/
theorem table_contents (c : Dev nD) :
    W9 m ρ c (Proc.devRef .tc main_v20) = groupOf (F := F) (W1 m ρ c (Proc.devRef .tc main_arg3)) := by
  show after (hostOps1_7 (F := F)) (W8 m ρ c) (Proc.devRef .tc main_v20) = _
  rw [take_stage, position_contents, words_contents]
  rfl

/-- The two reshaped output arrays of the first launch reach the ninth stretch as the first stretch wrote them. -/
theorem sums_table_contents (c : Dev nD) :
    W9 m ρ c (Proc.devRef .tc main_v1)
      = shapeCast S32x256 (W1 m ρ c (Proc.devRef .tc main_v0_0)) Facts₀.shapeCasts_S32x256x1x1_S32x256 := by
  simp only [after_cons, after_nil]
  rfl
theorem sumsqs_table_contents (c : Dev nD) :
    W9 m ρ c (Proc.devRef .tc main_v2)
      = shapeCast S32x256 (W1 m ρ c (Proc.devRef .tc main_v0_1)) Facts₀.shapeCasts_S32x256x1x1_S32x256 := by
  simp only [after_cons, after_nil]
  rfl

/-- No host operation writes an argument array. -/
theorem arg1_carried (c : Dev nD) : W9 m ρ c (Proc.devRef .tc main_arg1) = W1 m ρ c (Proc.devRef .tc main_arg1) := by
  simp only [after_cons, after_nil]
  rfl
theorem arg2_carried (c : Dev nD) : W9 m ρ c (Proc.devRef .tc main_arg2) = W1 m ρ c (Proc.devRef .tc main_arg2) := by
  simp only [after_cons, after_nil]
  rfl
theorem arg3_carried (c : Dev nD) : W9 m ρ c (Proc.devRef .tc main_arg3) = W1 m ρ c (Proc.devRef .tc main_arg3) := by
  simp only [after_cons, after_nil]
  rfl
theorem arg0_carried (c : Dev nD) : W10 m ρ c (Proc.devRef .tc main_arg0) = W1 m ρ c (Proc.devRef .tc main_arg0) := by
  simp only [after_cons, after_nil]
  rfl

/-- The first launch writes no argument array either: it reads `x` through an input window and never touches the
    three small arguments. -/
theorem arg0_launched (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem arg1_launched (c : Dev nD) : W1 m ρ c (Proc.devRef .tc main_arg1) = m ((c : Thread nD τ).loc main_arg1) :=
  W1_of_ne m ρ c main_arg1 (by decide)
theorem arg2_launched (c : Dev nD) : W1 m ρ c (Proc.devRef .tc main_arg2) = m ((c : Thread nD τ).loc main_arg2) :=
  W1_of_ne m ρ c main_arg2 (by decide)
theorem arg3_launched (c : Dev nD) : W1 m ρ c (Proc.devRef .tc main_arg3) = m ((c : Thread nD τ).loc main_arg3) :=
  W1_of_ne m ρ c main_arg3 (by decide)

/-! ## What the second launch finds -/

/-- The second launch's scale operand: the per-channel scale of Spec.lean, from the first launch's two output arrays
    re-laid as tables, the group weights and the group sizes as launched, re-laid as [32,256,1,1]. -/
theorem scale_contents (c : Dev nD) :
    V10 m ρ c main_v59
      = shapeCast S32x256x1x1
          (channelScale (F := F)
            (shapeCast S32x256 (W1 m ρ c (Proc.devRef .tc main_v0_0)) Facts₀.shapeCasts_S32x256x1x1_S32x256)
            (shapeCast S32x256 (W1 m ρ c (Proc.devRef .tc main_v0_1)) Facts₀.shapeCasts_S32x256x1x1_S32x256)
            (m ((c : Thread nD τ).loc main_arg1)) (m ((c : Thread nD τ).loc main_arg3)))
          Facts₀.shapeCasts_S32x256_S32x256x1x1 := by
  show after (hostOps1_8 (F := F)) (W9 m ρ c) (Proc.devRef .tc main_v59) = _
  rw [scale_stage, table_contents, sums_table_contents, sumsqs_table_contents, arg1_carried, arg3_carried,
    arg1_launched, arg3_launched]
  rfl

/-- The second launch's shift operand likewise. -/
theorem shift_contents (c : Dev nD) :
    V10 m ρ c main_v67
      = shapeCast S32x256x1x1
          (channelShift (F := F)
            (shapeCast S32x256 (W1 m ρ c (Proc.devRef .tc main_v0_0)) Facts₀.shapeCasts_S32x256x1x1_S32x256)
            (shapeCast S32x256 (W1 m ρ c (Proc.devRef .tc main_v0_1)) Facts₀.shapeCasts_S32x256x1x1_S32x256)
            (m ((c : Thread nD τ).loc main_arg1)) (m ((c : Thread nD τ).loc main_arg2)) (m ((c : Thread nD τ).loc main_arg3)))
          Facts₀.shapeCasts_S32x256_S32x256x1x1 := by
  show after (hostOps1_8 (F := F)) (W9 m ρ c) (Proc.devRef .tc main_v67) = _
  rw [shift_stage, table_contents, sums_table_contents, sumsqs_table_contents, arg1_carried, arg2_carried, arg3_carried,
    arg1_launched, arg2_launched, arg3_launched]
  rfl

/-- The second launch finds `x` as launched. -/
theorem x_contents (c : Dev nD) : V10 m ρ c main_arg0 = m ((c : Thread nD τ).loc main_arg0) :=
  (arg0_carried m ρ c).trans (arg0_launched m ρ c)

end Cert.KernelIdeal.HostFold

end
-- ==== Proof.PlaneOps.lean ====
/-
  The three array functions the two kernel launches compute, over the extended reals.

  An activation array has shape [32, 256, 56, 56]: sample, channel, row, column.  A per-channel array has shape
  [32, 256, 1, 1]: one number per (sample, channel).

  * `planeSum x`   : per (sample, channel) the sum of the 56 × 56 plane, rows outermost;
  * `planeSumSq x` : the same sum of the squares;
  * `affine x a b` : `x · a + b`, the per-channel numbers `a` and `b` spread over the plane.
-/
import Idealize.ShloMosaic.Lib.ValueIdx

noncomputable section

open scoped BigOperators

namespace Cert.RaggedNorm

open Idealize.ShloMosaic Idealize.ShloMosaic.ValueIdx

/-- The shape of an activation array. -/
abbrev Act : Shape := ⟨4, ![32, 256, 56, 56]⟩
/-- The shape of a per-channel array. -/
abbrev PerChan : Shape := ⟨4, ![32, 256, 1, 1]⟩

/-- The sum of plane `(n, ch)` of `x`: over the rows, of the sum over the columns. -/
def planeSumAt (x : FVec Ideal Act .f32) (n : Fin 32) (ch : Fin 256) : EReal :=
  ∑ h : Fin 56, ∑ w : Fin 56, x (ix4 n ch h w)

/-- The sum of the squares of plane `(n, ch)` of `x`. -/
def planeSumSqAt (x : FVec Ideal Act .f32) (n : Fin 32) (ch : Fin 256) : EReal :=
  ∑ h : Fin 56, ∑ w : Fin 56, x (ix4 n ch h w) * x (ix4 n ch h w)

/-- Every plane's sum, as a per-channel array. -/
def planeSum (x : FVec Ideal Act .f32) : FVec Ideal PerChan .f32 :=
  fun j => planeSumAt x (j 0) (j 1)

/-- Every plane's sum of squares, as a per-channel array. -/
def planeSumSq (x : FVec Ideal Act .f32) : FVec Ideal PerChan .f32 :=
  fun j => planeSumSqAt x (j 0) (j 1)

/-- `x · a + b` with `a` and `b` one number per (sample, channel). -/
def affine (x : FVec Ideal Act .f32) (a b : FVec Ideal PerChan .f32) : FVec Ideal Act .f32 :=
  fun i => x i * a (ix4 (i 0) (i 1) 0 0) + b (ix4 (i 0) (i 1) 0 0)

theorem planeSum_apply (x : FVec Ideal Act .f32) (n : Fin 32) (ch : Fin 256) (u v : Fin 1) :
    planeSum x (ix4 n ch u v) = planeSumAt x n ch := rfl

theorem planeSumSq_apply (x : FVec Ideal Act .f32) (n : Fin 32) (ch : Fin 256) (u v : Fin 1) :
    planeSumSq x (ix4 n ch u v) = planeSumSqAt x n ch := rfl

theorem affine_apply (x : FVec Ideal Act .f32) (a b : FVec Ideal PerChan .f32)
    (n : Fin 32) (ch : Fin 256) (h w : Fin 56) :
    affine x a b (ix4 n ch h w) = x (ix4 n ch h w) * a (ix4 n ch 0 0) + b (ix4 n ch 0 0) := rfl

end Cert.RaggedNorm

end
-- ==== Proof.RegionValues.lean ====
/-
  What the two kernel launches leave in their output arrays, as whole-array functions of the arrays they find.

  Both launches run over a grid of 32 points, one per sample.  At point t every window's block is sample t of its
  array: the whole [1, 256, 56, 56] slab of an activation array, or the [1, 256, 1, 1] column of a per-channel array.

  * First launch: the body sums the block over its columns, then over its rows, and stores the 256 plane sums; it
    does the same with the squares.  So the two result arrays end as planeSum and planeSumSq of the activations.
  * Second launch: the body multiplies the block by its sample's 256 scale numbers, spread over each plane, adds the
    256 shift numbers spread likewise, and stores the result.  So the result array ends as affine of the three
    operand arrays.

  The argument has three layers: (1) the body's arithmetic read at one entry of its block; (2) what one grid point
  writes back is the block of the whole-array function at that point; (3) every sample is written by exactly one
  point, so the blocks assemble to the whole function.
-/
import proofs.«131879_j10307921511080_1_alg».proof.Proof.Gen.KernelIdeal.Frame
import proofs.«131879_j10307921511080_1_alg».proof.Proof.PlaneOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValues

open Cert.KernelIdeal Cert.KernelIdeal.Gen Cert.RaggedNorm
open Idealize.ShloMosaic Idealize.ShloMosaic.TcCoe Idealize.SL.Sem Idealize.ShloMosaic.ValueIdx
open Idealize.ShloMosaic.Pipeline (Dat)

/-! ## 1. The bodies' arithmetic at one entry of a block

A block of activations is indexed (0, ch, h, w); a block of per-channel numbers (0, ch, 0, 0). -/

/-- Summing a [1, 256, 56, 56] block along its last axis: entry (0, ch, h) of the result is the sum of row h of
    plane ch over its 56 columns.  (The reduction's start value is the neutral element of addition, so no extra
    term appears.) -/
theorem sum_over_columns (x : FVec Ideal S1x256x56x56 .f32) (hr : S1x256x56x56.Reduces [3] S1x256x56)
    (hφ : FKind.Formats .f32) (hacc : (0x00000000#32 : BitVec 32) = FKind.add.neutral .f32 hφ)
    (ch : Fin 256) (h : Fin 56) :
    multiReduction .add [3] S1x256x56 x 0x00000000#32 hr hφ hacc (ix3 0 ch h) = ∑ w : Fin 56, x (ix4 0 ch h w) := by
  refine (Ideal.multiReduction_add_single x 0x00000000#32 hr hφ hacc (ix3 0 ch h)).trans ?_
  -- the index over (0, ch, h) with column w inserted on the last axis is (0, ch, h, w)
  refine Finset.sum_congr rfl fun w _ => congrArg x (funext fun a => Fin.ext ?_)
  match a with
  | ⟨0, _⟩ => rfl
  | ⟨1, _⟩ => rfl
  | ⟨2, _⟩ => rfl
  | ⟨3, _⟩ => rfl

/-- Summing a [1, 256, 56, 1] block along its row axis: entry (0, ch, 0) of the result is the sum over the 56 rows. -/
theorem sum_over_rows (y : FVec Ideal S1x256x56x1 .f32) (hr : S1x256x56x1.Reduces [2] S1x256x1)
    (hφ : FKind.Formats .f32) (hacc : (0x00000000#32 : BitVec 32) = FKind.add.neutral .f32 hφ)
    (ch : Fin 256) :
    multiReduction .add [2] S1x256x1 y 0x00000000#32 hr hφ hacc (ix3 0 ch 0) = ∑ h : Fin 56, y (ix4 0 ch h 0) := by
  refine (Ideal.multiReduction_add_single y 0x00000000#32 hr hφ hacc (ix3 0 ch 0)).trans ?_
  refine Finset.sum_congr rfl fun h _ => congrArg y (funext fun a => Fin.ext ?_)
  match a with
  | ⟨0, _⟩ => rfl
  | ⟨1, _⟩ => rfl
  | ⟨2, _⟩ => rfl
  | ⟨3, _⟩ => rfl

/-- Viewing a [1, 256, 56] array as [1, 256, 56, 1] keeps every entry: (0, ch, h, 0) is the old (0, ch, h), because
    a trailing axis of extent one does not change an entry's row-major position. -/
theorem append_unit_axis_rows {α : Type} (v : S1x256x56.Idx → α) (hc : S1x256x56.ShapeCasts S1x256x56x1)
    (ch : Fin 256) (h : Fin 56) :
    shapeCast S1x256x56x1 v hc (ix4 0 ch h 0) = v (ix3 0 ch h) := by
  refine shapeCast_apply v hc (ix4 0 ch h 0) (ix3 0 ch h) ?_
  rw [Shape.rowMajor_val_three, Shape.rowMajor_val_four]
  show ((0 * 256 + ch.val) * 56 + h.val) = (((0 * 256 + ch.val) * 56 + h.val) * 1 + 0)
  omega

/-- Viewing a [1, 256, 1] array as [1, 256, 1, 1] keeps every entry: (0, ch, 0, 0) is the old (0, ch, 0). -/
theorem append_unit_axis_sums {α : Type} (v : S1x256x1.Idx → α) (hc : S1x256x1.ShapeCasts S1x256x1x1)
    (ch : Fin 256) :
    shapeCast S1x256x1x1 v hc (ix4 0 ch 0 0) = v (ix3 0 ch 0) := by
  refine shapeCast_apply v hc (ix4 0 ch 0 0) (ix3 0 ch 0) ?_
  rw [Shape.rowMajor_val_three, Shape.rowMajor_val_four]
  show ((0 * 256 + ch.val) * 1 + 0) = (((0 * 256 + ch.val) * 1 + 0) * 1 + 0)
  omega

/-- THE FIRST STORED VALUE of the reducing body: entry (0, ch, 0, 0) is the sum of plane ch of the loaded block,
    rows outermost.  Reading from the outside in: the last cast keeps the entry of the row reduction, which is a sum
    over the rows h of the cast column sums, each of which is a sum over the columns w. -/
theorem plane_sum_payload (x0 : Vec Ideal S1x256x56x56 .f32) (ch : Fin 256) :
    k0_pay1 x0 (ix4 0 ch 0 0) = ∑ h : Fin 56, ∑ w : Fin 56, x0 (ix4 0 ch h w) := by
  unfold k0_pay1
  refine (append_unit_axis_sums _ _ ch).trans ?_
  refine (sum_over_rows _ _ _ _ ch).trans ?_
  refine Finset.sum_congr rfl fun h _ => ?_
  refine (append_unit_axis_rows _ _ ch h).trans ?_
  exact sum_over_columns _ _ _ _ ch h

/-- THE SECOND STORED VALUE of the reducing body: the same double sum of the block's squares. -/
theorem plane_sumsq_payload (x0 : Vec Ideal S1x256x56x56 .f32) (ch : Fin 256) :
    k0_pay2 x0 (ix4 0 ch 0 0) = ∑ h : Fin 56, ∑ w : Fin 56, x0 (ix4 0 ch h w) * x0 (ix4 0 ch h w) := by
  unfold k0_pay2
  refine (append_unit_axis_sums _ _ ch).trans ?_
  refine (sum_over_rows _ _ _ _ ch).trans ?_
  refine Finset.sum_congr rfl fun h _ => ?_
  refine (append_unit_axis_rows _ _ ch h).trans ?_
  refine (sum_over_columns _ _ _ _ ch h).trans ?_
  -- the summand of the column sum is the pointwise product of the block with itself
  exact Finset.sum_congr rfl fun w _ => mulf_apply x0 x0 (ix4 0 ch h w)

/-- Spreading a [1, 256, 1, 1] column over [1, 256, 56, 56]: entry (0, ch, h, w) is the column's number for ch. -/
theorem spread_over_plane {α : Type} (v : S1x256x1x1.Idx → α) (hb : S1x256x1x1.Broadcasts S1x256x56x56)
    (ch : Fin 256) (h w : Fin 56) :
    broadcastTo S1x256x56x56 v hb (ix4 0 ch h w) = v (ix4 0 ch 0 0) := by
  refine broadcastTo_apply v hb (ix4 0 ch h w) (ix4 0 ch 0 0) fun a => ?_
  match a with
  | ⟨0, _⟩ => rfl
  | ⟨1, _⟩ => rfl
  | ⟨2, _⟩ => rfl
  | ⟨3, _⟩ => rfl

/-- THE STORED VALUE of the normalising body: entry (0, ch, h, w) is the activation there times the scale number
    of channel ch plus the shift number of channel ch.  (The two casts of the columns to their own shape change
    nothing.) -/
theorem affine_payload (x0 : Vec Ideal S1x256x56x56 .f32) (x1 x2 : Vec Ideal S1x256x1x1 .f32)
    (ch : Fin 256) (h w : Fin 56) :
    k1_pay1 x0 x1 x2 (ix4 0 ch h w) = x0 (ix4 0 ch h w) * x1 (ix4 0 ch 0 0) + x2 (ix4 0 ch 0 0) := by
  unfold k1_pay1
  rw [shapeCast_self, shapeCast_self]
  show x0 (ix4 0 ch h w) * broadcastTo S1x256x56x56 x1 _ (ix4 0 ch h w)
      + broadcastTo S1x256x56x56 x2 _ (ix4 0 ch h w) = _
  rw [spread_over_plane, spread_over_plane]

/-! ## 2. What one grid point writes back

The region-entry contents of the device's buffers are a parameter V throughout: the statements hold whatever the
launch finds in its arrays. -/

variable (V : (c : Dev nD) → (b : Ref sig .tc) → Buf (Elt Ideal) ((c : Thread nD τ).loc b))

/-- The bodies load and store whole blocks: every access starts at offset zero on all four axes. -/
theorem zero_offsets : (![0, 0, 0, 0] : Fin 4 → Nat) = fun _ => 0 := funext fun a => by fin_cases a <;> rfl

/-- An index of a per-channel block is (0, ch, 0, 0) for its channel ch: the other three axes have extent one. -/
theorem perchan_block_index (j : S1x256x1x1.Idx) : ∃ ch : Fin 256, j = ix4 0 ch 0 0 :=
  ⟨j 1, funext fun a => by
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _⟩

/-- An index of an activation block is (0, ch, h, w): only the sample axis has extent one. -/
theorem act_block_index (y : S1x256x56x56.Idx) : ∃ (ch : Fin 256) (h w : Fin 56), y = ix4 0 ch h w :=
  ⟨y 1, y 2, y 3, funext fun a => by
    match a with
    | ⟨0, _⟩ => exact Subsingleton.elim (α := Fin 1) _ _
    | ⟨1, _⟩ => rfl
    | ⟨2, _⟩ => rfl
    | ⟨3, _⟩ => rfl⟩

/-- If a block x0 holds sample n of an activation array X, the first stored value of the reducing body at channel ch
    is planeSum X at (n, ch): the double sum over the block's plane is the double sum over the array's plane. -/
theorem plane_sum_of_block (X : FVec Ideal Act .f32) (x0 : Vec Ideal S1x256x56x56 .f32) (n : Fin 32)
    (hx : ∀ (ch : Fin 256) (h w : Fin 56), x0 (ix4 0 ch h w) = X (ix4 n ch h w)) (ch : Fin 256) :
    k0_pay1 x0 (ix4 0 ch 0 0) = planeSum X (ix4 n ch 0 0) := by
  refine (plane_sum_payload x0 ch).trans ?_
  exact Finset.sum_congr rfl fun h _ => Finset.sum_congr rfl fun w _ => hx ch h w

/-- The same for the second stored value and planeSumSq. -/
theorem plane_sumsq_of_block (X : FVec Ideal Act .f32) (x0 : Vec Ideal S1x256x56x56 .f32) (n : Fin 32)
    (hx : ∀ (ch : Fin 256) (h w : Fin 56), x0 (ix4 0 ch h w) = X (ix4 n ch h w)) (ch : Fin 256) :
    k0_pay2 x0 (ix4 0 ch 0 0) = planeSumSq X (ix4 n ch 0 0) := by
  refine (plane_sumsq_payload x0 ch).trans ?_
  show _ = ∑ h : Fin 56, ∑ w : Fin 56, X (ix4 n ch h w) * X (ix4 n ch h w)
  exact Finset.sum_congr rfl fun h _ => Finset.sum_congr rfl fun w _ =>
    congrArg₂ (· * ·) (hx ch h w) (hx ch h w)

/-- If x0 holds sample n of the activations X, and x1, x2 hold sample n's columns of the per-channel arrays A and B,
    the stored value of the normalising body at (ch, h, w) is affine X A B at (n, ch, h, w). -/
theorem affine_of_blocks (X : FVec Ideal Act .f32) (A B : FVec Ideal PerChan .f32)
    (x0 : Vec Ideal S1x256x56x56 .f32) (x1 x2 : Vec Ideal S1x256x1x1 .f32) (n : Fin 32)
    (hx : ∀ (ch : Fin 256) (h w : Fin 56), x0 (ix4 0 ch h w) = X (ix4 n ch h w))
    (ha : ∀ ch : Fin 256, x1 (ix4 0 ch 0 0) = A (ix4 n ch 0 0))
    (hb : ∀ ch : Fin 256, x2 (ix4 0 ch 0 0) = B (ix4 n ch 0 0)) (ch : Fin 256) (h w : Fin 56) :
    k1_pay1 x0 x1 x2 (ix4 0 ch h w) = affine X A B (ix4 n ch h w) := by
  rw [affine_payload, hx, ha, hb]
  rfl

/-! ### The reducing launch -/

/-- Grid point t of the 32 works on sample t. -/
abbrev sample0 (t : Fin cfg0.N) : Fin 32 := Fin.cast N_0 t

/-- The three index maps of the reducing launch, decided once over the 32 grid points: at point t every window's
    block index is (t, 0, 0, 0). -/
theorem block_index0 : ∀ t : Fin cfg0.N,
    (win0_0.index t (0 : Fin 4) = t.val ∧ win0_0.index t (1 : Fin 4) = 0
      ∧ win0_0.index t (2 : Fin 4) = 0 ∧ win0_0.index t (3 : Fin 4) = 0)
    ∧ (win0_1.index t (0 : Fin 4) = t.val ∧ win0_1.index t (1 : Fin 4) = 0
      ∧ win0_1.index t (2 : Fin 4) = 0 ∧ win0_1.index t (3 : Fin 4) = 0)
    ∧ (win0_2.index t (0 : Fin 4) = t.val ∧ win0_2.index t (1 : Fin 4) = 0
      ∧ win0_2.index t (2 : Fin 4) = 0 ∧ win0_2.index t (3 : Fin 4) = 0) :=
  (by decide +kernel : ∀ t : Fin grid0.N, _)

/-- WHERE AN ENTRY OF THE ACTIVATION BLOCK SITS: on each axis at block index × block extent + 1 × the coordinate in
    the block; with block index (t, 0, 0, 0) and extents (1, 256, 56, 56), entry (0, ch, h, w) of point t's block
    is entry (t, ch, h, w) of the array. -/
theorem act_entry0 (t : Fin cfg0.N) (ch : Fin 256) (h w : Fin 56) :
    ((cfg0.win 0).blk t).view.emb (ix4 0 ch h w : S1x256x56x56.Idx)
      = (ix4 (sample0 t) ch h w : S32x256x56x56.Idx) := by
  obtain ⟨⟨e0, e1, e2, e3⟩, -, -⟩ := block_index0 t
  funext a; apply Fin.ext
  match a with
  | ⟨0, _⟩ => show win0_0.index t (0 : Fin 4) * 1 + 1 * 0 = t.val; omega
  | ⟨1, _⟩ => show win0_0.index t (1 : Fin 4) * 256 + 1 * ch.val = ch.val; omega
  | ⟨2, _⟩ => show win0_0.index t (2 : Fin 4) * 56 + 1 * h.val = h.val; omega
  | ⟨3, _⟩ => show win0_0.index t (3 : Fin 4) * 56 + 1 * w.val = w.val; omega

/-- Likewise entry (0, ch, 0, 0) of point t's block of the sums array is entry (t, ch, 0, 0) of that array. -/
theorem sums_entry0 (t : Fin cfg0.N) (ch : Fin 256) :
    ((cfg0.win 1).blk t).view.emb (ix4 0 ch 0 0 : S1x256x1x1.Idx)
      = (ix4 (sample0 t) ch 0 0 : S32x256x1x1.Idx) := by
  obtain ⟨-, ⟨e0, e1, e2, e3⟩, -⟩ := block_index0 t
  funext a; apply Fin.ext
  match a with
  | ⟨0, _⟩ => show win0_1.index t (0 : Fin 4) * 1 + 1 * 0 = t.val; omega
  | ⟨1, _⟩ => show win0_1.index t (1 : Fin 4) * 256 + 1 * ch.val = ch.val; omega
  | ⟨2, _⟩ => show win0_1.index t (2 : Fin 4) * 1 + 1 * 0 = 0; omega
  | ⟨3, _⟩ => show win0_1.index t (3 : Fin 4) * 1 + 1 * 0 = 0; omega

/-- The activation block the body loads at point t, entry by entry: sample t of the activations as found. -/
theorem act_block0 (c : Dev nD) (t : Fin cfg0.N) (ch : Fin 256) (h w : Fin 56) :
    (iblk0 V c 0 t : Vec Ideal S1x256x56x56 .f32) (ix4 0 ch h w)
      = (V c main_arg0 : FVec Ideal Act .f32) (ix4 (sample0 t) ch h w) := by
  show V c main_arg0 (((cfg0.win 0).blk t).view.emb (ix4 0 ch h w : S1x256x56x56.Idx)) = _
  rw [act_entry0]

/-- WHAT POINT t WRITES BACK TO THE SUMS ARRAY is point t's block of planeSum of the activations. -/
theorem sums_block (c : Dev nD) (t : Fin cfg0.N) :
    (dat0 (F := Ideal) V c).flushed 1 t
      = ((cfg0.win 1).blk t).view.read (Elt Ideal) (planeSum (V c main_arg0)) := by
  -- what is written back is what the body left in the staging buffer: its one whole-block store
  show (cfg0.win 1).cut (grid0.coords t) ((dat0 V c).after 1 t) = _
  rw [after0_1]
  unfold out0_1
  rw [View.canon_unit_zero zero_offsets]
  simp only [View.ld_unit_zero (S := S1x256x56x56) zero_offsets]
  -- entry by entry: channel ch of the stored block against entry (t, ch, 0, 0) of planeSum
  refine funext fun (j : S1x256x1x1.Idx) => ?_
  obtain ⟨ch, rfl⟩ := perchan_block_index j
  show k0_pay1 (iblk0 V c 0 t) (ix4 0 ch 0 0)
      = planeSum (V c main_arg0) (((cfg0.win 1).blk t).view.emb (ix4 0 ch 0 0 : S1x256x1x1.Idx))
  rw [sums_entry0]
  -- both sides are the double sum over plane (t, ch); the block's entries are the array's
  exact plane_sum_of_block (V c main_arg0) (iblk0 V c 0 t) (sample0 t) (act_block0 V c t) ch

/-- Entry (0, ch, 0, 0) of point t's block of the sums-of-squares array is entry (t, ch, 0, 0) of that array. -/
theorem sumsqs_entry0 (t : Fin cfg0.N) (ch : Fin 256) :
    ((cfg0.win 2).blk t).view.emb (ix4 0 ch 0 0 : S1x256x1x1.Idx)
      = (ix4 (sample0 t) ch 0 0 : S32x256x1x1.Idx) := by
  obtain ⟨-, -, ⟨e0, e1, e2, e3⟩⟩ := block_index0 t
  funext a; apply Fin.ext
  match a with
  | ⟨0, _⟩ => show win0_2.index t (0 : Fin 4) * 1 + 1 * 0 = t.val; omega
  | ⟨1, _⟩ => show win0_2.index t (1 : Fin 4) * 256 + 1 * ch.val = ch.val; omega
  | ⟨2, _⟩ => show win0_2.index t (2 : Fin 4) * 1 + 1 * 0 = 0; omega
  | ⟨3, _⟩ => show win0_2.index t (3 : Fin 4) * 1 + 1 * 0 = 0; omega

/-- WHAT POINT t WRITES BACK TO THE SUMS-OF-SQUARES ARRAY is point t's block of planeSumSq of the activations. -/
theorem sumsqs_block (c : Dev nD) (t : Fin cfg0.N) :
    (dat0 (F := Ideal) V c).flushed 2 t
      = ((cfg0.win 2).blk t).view.read (Elt Ideal) (planeSumSq (V c main_arg0)) := by
  show (cfg0.win 2).cut (grid0.coords t) ((dat0 V c).after 2 t) = _
  rw [after0_2]
  unfold out0_2
  rw [View.canon_unit_zero zero_offsets]
  simp only [View.ld_unit_zero (S := S1x256x56x56) zero_offsets]
  refine funext fun (j : S1x256x1x1.Idx) => ?_
  obtain ⟨ch, rfl⟩ := perchan_block_index j
  show k0_pay2 (iblk0 V c 0 t) (ix4 0 ch 0 0)
      = planeSumSq (V c main_arg0) (((cfg0.win 2).blk t).view.emb (ix4 0 ch 0 0 : S1x256x1x1.Idx))
  rw [sumsqs_entry0]
  exact plane_sumsq_of_block (V c main_arg0) (iblk0 V c 0 t) (sample0 t) (act_block0 V c t) ch

/-! ### The normalising launch -/

/-- Grid point t of the 32 works on sample t. -/
abbrev sample1 (t : Fin cfg1.N) : Fin 32 := Fin.cast N_1 t

/-- The four index maps of the normalising launch, decided once over the 32 grid points: at point t every window's
    block index is (t, 0, 0, 0). -/
theorem block_index1 : ∀ t : Fin cfg1.N,
    (win1_0.index t (0 : Fin 4) = t.val ∧ win1_0.index t (1 : Fin 4) = 0
      ∧ win1_0.index t (2 : Fin 4) = 0 ∧ win1_0.index t (3 : Fin 4) = 0)
    ∧ (win1_1.index t (0 : Fin 4) = t.val ∧ win1_1.index t (1 : Fin 4) = 0
      ∧ win1_1.index t (2 : Fin 4) = 0 ∧ win1_1.index t (3 : Fin 4) = 0)
    ∧ (win1_2.index t (0 : Fin 4) = t.val ∧ win1_2.index t (1 : Fin 4) = 0
      ∧ win1_2.index t (2 : Fin 4) = 0 ∧ win1_2.index t (3 : Fin 4) = 0)
    ∧ (win1_3.index t (0 : Fin 4) = t.val ∧ win1_3.index t (1 : Fin 4) = 0
      ∧ win1_3.index t (2 : Fin 4) = 0 ∧ win1_3.index t (3 : Fin 4) = 0) :=
  (by decide +kernel : ∀ t : Fin grid1.N, _)

/-- Entry (0, ch, h, w) of point t's activation block is entry (t, ch, h, w) of the activations. -/
theorem act_entry1 (t : Fin cfg1.N) (ch : Fin 256) (h w : Fin 56) :
    ((cfg1.win 0).blk t).view.emb (ix4 0 ch h w : S1x256x56x56.Idx)
      = (ix4 (sample1 t) ch h w : S32x256x56x56.Idx) := by
  obtain ⟨⟨e0, e1, e2, e3⟩, -, -, -⟩ := block_index1 t
  funext a; apply Fin.ext
  match a with
  | ⟨0, _⟩ => show win1_0.index t (0 : Fin 4) * 1 + 1 * 0 = t.val; omega
  | ⟨1, _⟩ => show win1_0.index t (1 : Fin 4) * 256 + 1 * ch.val = ch.val; omega
  | ⟨2, _⟩ => show win1_0.index t (2 : Fin 4) * 56 + 1 * h.val = h.val; omega
  | ⟨3, _⟩ => show win1_0.index t (3 : Fin 4) * 56 + 1 * w.val = w.val; omega

/-- Entry (0, ch, 0, 0) of point t's scale block is entry (t, ch, 0, 0) of the scale array. -/
theorem scale_entry1 (t : Fin cfg1.N) (ch : Fin 256) :
    ((cfg1.win 1).blk t).view.emb (ix4 0 ch 0 0 : S1x256x1x1.Idx)
      = (ix4 (sample1 t) ch 0 0 : S32x256x1x1.Idx) := by
  obtain ⟨-, ⟨e0, e1, e2, e3⟩, -, -⟩ := block_index1 t
  funext a; apply Fin.ext
  match a with
  | ⟨0, _⟩ => show win1_1.index t (0 : Fin 4) * 1 + 1 * 0 = t.val; omega
  | ⟨1, _⟩ => show win1_1.index t (1 : Fin 4) * 256 + 1 * ch.val = ch.val; omega
  | ⟨2, _⟩ => show win1_1.index t (2 : Fin 4) * 1 + 1 * 0 = 0; omega
  | ⟨3, _⟩ => show win1_1.index t (3 : Fin 4) * 1 + 1 * 0 = 0; omega

/-- Entry (0, ch, 0, 0) of point t's shift block is entry (t, ch, 0, 0) of the shift array. -/
theorem shift_entry1 (t : Fin cfg1.N) (ch : Fin 256) :
    ((cfg1.win 2).blk t).view.emb (ix4 0 ch 0 0 : S1x256x1x1.Idx)
      = (ix4 (sample1 t) ch 0 0 : S32x256x1x1.Idx) := by
  obtain ⟨-, -, ⟨e0, e1, e2, e3⟩, -⟩ := block_index1 t
  funext a; apply Fin.ext
  match a with
  | ⟨0, _⟩ => show win1_2.index t (0 : Fin 4) * 1 + 1 * 0 = t.val; omega
  | ⟨1, _⟩ => show win1_2.index t (1 : Fin 4) * 256 + 1 * ch.val = ch.val; omega
  | ⟨2, _⟩ => show win1_2.index t (2 : Fin 4) * 1 + 1 * 0 = 0; omega
  | ⟨3, _⟩ => show win1_2.index t (3 : Fin 4) * 1 + 1 * 0 = 0; omega

/-- Entry (0, ch, h, w) of point t's block of the result array is entry (t, ch, h, w) of that array. -/
theorem result_entry1 (t : Fin cfg1.N) (ch : Fin 256) (h w : Fin 56) :
    ((cfg1.win 3).blk t).view.emb (ix4 0 ch h w : S1x256x56x56.Idx)
      = (ix4 (sample1 t) ch h w : S32x256x56x56.Idx) := by
  obtain ⟨-, -, -, ⟨e0, e1, e2, e3⟩⟩ := block_index1 t
  funext a; apply Fin.ext
  match a with
  | ⟨0, _⟩ => show win1_3.index t (0 : Fin 4) * 1 + 1 * 0 = t.val; omega
  | ⟨1, _⟩ => show win1_3.index t (1 : Fin 4) * 256 + 1 * ch.val = ch.val; omega
  | ⟨2, _⟩ => show win1_3.index t (2 : Fin 4) * 56 + 1 * h.val = h.val; omega
  | ⟨3, _⟩ => show win1_3.index t (3 : Fin 4) * 56 + 1 * w.val = w.val; omega

/-- The activation block the normalising body loads at point t: sample t of the activations as found. -/
theorem act_block1 (c : Dev nD) (t : Fin cfg1.N) (ch : Fin 256) (h w : Fin 56) :
    (iblk1 V c 0 t : Vec Ideal S1x256x56x56 .f32) (ix4 0 ch h w)
      = (V c main_arg0 : FVec Ideal Act .f32) (ix4 (sample1 t) ch h w) := by
  show V c main_arg0 (((cfg1.win 0).blk t).view.emb (ix4 0 ch h w : S1x256x56x56.Idx)) = _
  rw [act_entry1]

/-- The scale block it loads: sample t's 256 scale numbers. -/
theorem scale_block1 (c : Dev nD) (t : Fin cfg1.N) (ch : Fin 256) :
    (iblk1 V c 1 t : Vec Ideal S1x256x1x1 .f32) (ix4 0 ch 0 0)
      = (V c main_v59 : FVec Ideal PerChan .f32) (ix4 (sample1 t) ch 0 0) := by
  show V c main_v59 (((cfg1.win 1).blk t).view.emb (ix4 0 ch 0 0 : S1x256x1x1.Idx)) = _
  rw [scale_entry1]

/-- The shift block it loads: sample t's 256 shift numbers. -/
theorem shift_block1 (c : Dev nD) (t : Fin cfg1.N) (ch : Fin 256) :
    (iblk1 V c 2 t : Vec Ideal S1x256x1x1 .f32) (ix4 0 ch 0 0)
      = (V c main_v67 : FVec Ideal PerChan .f32) (ix4 (sample1 t) ch 0 0) := by
  show V c main_v67 (((cfg1.win 2).blk t).view.emb (ix4 0 ch 0 0 : S1x256x1x1.Idx)) = _
  rw [shift_entry1]

/-- WHAT POINT t WRITES BACK TO THE RESULT ARRAY is point t's block of affine of the activations, the scale array
    and the shift array as found. -/
theorem normalized_block (c : Dev nD) (t : Fin cfg1.N) :
    (dat1 (F := Ideal) V c).flushed 3 t
      = ((cfg1.win 3).blk t).view.read (Elt Ideal)
          (affine (V c main_arg0) (V c main_v59) (V c main_v67)) := by
  -- what is written back is what the body left in the staging buffer: its one whole-block store
  show (cfg1.win 3).cut (grid1.coords t) ((dat1 V c).after 3 t) = _
  rw [after1_3]
  unfold out1_3
  rw [View.canon_unit_zero zero_offsets]
  simp only [View.ld_unit_zero (S := S1x256x56x56) zero_offsets, View.ld_unit_zero (S := S1x256x1x1) zero_offsets]
  -- entry by entry: (ch, h, w) of the stored block against entry (t, ch, h, w) of affine
  refine funext fun (y : S1x256x56x56.Idx) => ?_
  obtain ⟨ch, h, w, rfl⟩ := act_block_index y
  show k1_pay1 (iblk1 V c 0 t) (iblk1 V c 1 t) (iblk1 V c 2 t) (ix4 0 ch h w)
      = affine (V c main_arg0) (V c main_v59) (V c main_v67)
          (((cfg1.win 3).blk t).view.emb (ix4 0 ch h w : S1x256x56x56.Idx))
  rw [result_entry1]
  exact affine_of_blocks (V c main_arg0) (V c main_v59) (V c main_v67)
    (iblk1 V c 0 t) (iblk1 V c 1 t) (iblk1 V c 2 t) (sample1 t)
    (act_block1 V c t) (scale_block1 V c t) (shift_block1 V c t) ch h w

/-! ## 3. Every sample is written exactly once, so the blocks assemble -/

/-- An index of the sums array lies in point t's block iff, on each axis, it is within the block's extent of the
    block's start (block index × extent). -/
theorem mem_sums_block (t : Fin cfg0.N) (i : S32x256x1x1.Idx) :
    i ∈ ((cfg0.win 1).blk t).view.set ↔ ∀ a : Fin 4, win0_1.index t a * S1x256x1x1.size a ≤ (i a).val
      ∧ (i a).val < win0_1.index t a * S1x256x1x1.size a + S1x256x1x1.size a := by
  show i ∈ ((View.whole main_v0_0).slice (win0_1.rect t)).set ↔ _
  rw [View.set_slice_whole, Rect.mem_set_unit]
  exact Iff.rfl

/-- THE SUMS ARRAY AFTER THE REDUCING LAUNCH is planeSum of the activations the launch found: entry (n, ch, 0, 0)
    lies in the block of grid point n, and that point wrote planeSum's block there. -/
theorem sums_array (c : Dev nD) :
    (dat0 (F := Ideal) V c).arrAt 1 cfg0.N = planeSum (V c main_arg0) := by
  refine (dat0 V c).arrAt_eq_of_cover 1 (planeSum (V c main_arg0)) (fun t _ => sums_block V c t)
    fun (i : S32x256x1x1.Idx) => ?_
  have h0 : (i 0).val < 32 := (i 0).isLt
  have h1 : (i 1).val < 256 := (i 1).isLt
  have h2 : (i 2).val < 1 := (i 2).isLt
  have h3 : (i 3).val < 1 := (i 3).isLt
  have hN : grid0.N = 32 := N_0
  have hN' : cfg0.N = 32 := N_0
  refine ⟨⟨(i 0).val, by omega⟩, flush0_1 _, ?_⟩
  rw [mem_sums_block]
  obtain ⟨-, ⟨e0, e1, e2, e3⟩, -⟩ := block_index0 ⟨(i 0).val, by omega⟩
  have e0' : win0_1.index ⟨(i 0).val, by omega⟩ (0 : Fin 4) = (i 0).val := e0
  intro a
  match a with
  | ⟨0, _⟩ =>
    show win0_1.index ⟨(i 0).val, _⟩ (0 : Fin 4) * 1 ≤ (i 0).val
      ∧ (i 0).val < win0_1.index ⟨(i 0).val, _⟩ (0 : Fin 4) * 1 + 1
    omega
  | ⟨1, _⟩ =>
    show win0_1.index ⟨(i 0).val, _⟩ (1 : Fin 4) * 256 ≤ (i 1).val
      ∧ (i 1).val < win0_1.index ⟨(i 0).val, _⟩ (1 : Fin 4) * 256 + 256
    omega
  | ⟨2, _⟩ =>
    show win0_1.index ⟨(i 0).val, _⟩ (2 : Fin 4) * 1 ≤ (i 2).val
      ∧ (i 2).val < win0_1.index ⟨(i 0).val, _⟩ (2 : Fin 4) * 1 + 1
    omega
  | ⟨3, _⟩ =>
    show win0_1.index ⟨(i 0).val, _⟩ (3 : Fin 4) * 1 ≤ (i 3).val
      ∧ (i 3).val < win0_1.index ⟨(i 0).val, _⟩ (3 : Fin 4) * 1 + 1
    omega

/-- The same membership test for the sums-of-squares array. -/
theorem mem_sumsqs_block (t : Fin cfg0.N) (i : S32x256x1x1.Idx) :
    i ∈ ((cfg0.win 2).blk t).view.set ↔ ∀ a : Fin 4, win0_2.index t a * S1x256x1x1.size a ≤ (i a).val
      ∧ (i a).val < win0_2.index t a * S1x256x1x1.size a + S1x256x1x1.size a := by
  show i ∈ ((View.whole main_v0_1).slice (win0_2.rect t)).set ↔ _
  rw [View.set_slice_whole, Rect.mem_set_unit]
  exact Iff.rfl

/-- THE SUMS-OF-SQUARES ARRAY AFTER THE REDUCING LAUNCH is planeSumSq of the activations the launch found. -/
theorem sumsqs_array (c : Dev nD) :
    (dat0 (F := Ideal) V c).arrAt 2 cfg0.N = planeSumSq (V c main_arg0) := by
  refine (dat0 V c).arrAt_eq_of_cover 2 (planeSumSq (V c main_arg0)) (fun t _ => sumsqs_block V c t)
    fun (i : S32x256x1x1.Idx) => ?_
  have h0 : (i 0).val < 32 := (i 0).isLt
  have h1 : (i 1).val < 256 := (i 1).isLt
  have h2 : (i 2).val < 1 := (i 2).isLt
  have h3 : (i 3).val < 1 := (i 3).isLt
  have hN : grid0.N = 32 := N_0
  have hN' : cfg0.N = 32 := N_0
  refine ⟨⟨(i 0).val, by omega⟩, flush0_2 _, ?_⟩
  rw [mem_sumsqs_block]
  obtain ⟨-, -, ⟨e0, e1, e2, e3⟩⟩ := block_index0 ⟨(i 0).val, by omega⟩
  have e0' : win0_2.index ⟨(i 0).val, by omega⟩ (0 : Fin 4) = (i 0).val := e0
  intro a
  match a with
  | ⟨0, _⟩ =>
    show win0_2.index ⟨(i 0).val, _⟩ (0 : Fin 4) * 1 ≤ (i 0).val
      ∧ (i 0).val < win0_2.index ⟨(i 0).val, _⟩ (0 : Fin 4) * 1 + 1
    omega
  | ⟨1, _⟩ =>
    show win0_2.index ⟨(i 0).val, _⟩ (1 : Fin 4) * 256 ≤ (i 1).val
      ∧ (i 1).val < win0_2.index ⟨(i 0).val, _⟩ (1 : Fin 4) * 256 + 256
    omega
  | ⟨2, _⟩ =>
    show win0_2.index ⟨(i 0).val, _⟩ (2 : Fin 4) * 1 ≤ (i 2).val
      ∧ (i 2).val < win0_2.index ⟨(i 0).val, _⟩ (2 : Fin 4) * 1 + 1
    omega
  | ⟨3, _⟩ =>
    show win0_2.index ⟨(i 0).val, _⟩ (3 : Fin 4) * 1 ≤ (i 3).val
      ∧ (i 3).val < win0_2.index ⟨(i 0).val, _⟩ (3 : Fin 4) * 1 + 1
    omega

/-- An index of the result array lies in point t's block iff, on each axis, it is within the block's extent of
    the block's start. -/
theorem mem_result_block (t : Fin cfg1.N) (i : S32x256x56x56.Idx) :
    i ∈ ((cfg1.win 3).blk t).view.set ↔ ∀ a : Fin 4, win1_3.index t a * S1x256x56x56.size a ≤ (i a).val
      ∧ (i a).val < win1_3.index t a * S1x256x56x56.size a + S1x256x56x56.size a := by
  show i ∈ ((View.whole main_v68).slice (win1_3.rect t)).set ↔ _
  rw [View.set_slice_whole, Rect.mem_set_unit]
  exact Iff.rfl

/-- THE RESULT ARRAY AFTER THE NORMALISING LAUNCH is affine of the activations, the scale array and the shift
    array the launch found: entry (n, ch, h, w) lies in the block of grid point n, and that point wrote affine's
    block there. -/
theorem normalized_array (c : Dev nD) :
    (dat1 (F := Ideal) V c).arrAt 3 cfg1.N = affine (V c main_arg0) (V c main_v59) (V c main_v67) := by
  refine (dat1 V c).arrAt_eq_of_cover 3 (affine (V c main_arg0) (V c main_v59) (V c main_v67))
    (fun t _ => normalized_block V c t) fun (i : S32x256x56x56.Idx) => ?_
  have h0 : (i 0).val < 32 := (i 0).isLt
  have h1 : (i 1).val < 256 := (i 1).isLt
  have h2 : (i 2).val < 56 := (i 2).isLt
  have h3 : (i 3).val < 56 := (i 3).isLt
  have hN : grid1.N = 32 := N_1
  have hN' : cfg1.N = 32 := N_1
  refine ⟨⟨(i 0).val, by omega⟩, flush1_3 _, ?_⟩
  rw [mem_result_block]
  obtain ⟨-, -, -, ⟨e0, e1, e2, e3⟩⟩ := block_index1 ⟨(i 0).val, by omega⟩
  have e0' : win1_3.index ⟨(i 0).val, by omega⟩ (0 : Fin 4) = (i 0).val := e0
  intro a
  match a with
  | ⟨0, _⟩ =>
    show win1_3.index ⟨(i 0).val, _⟩ (0 : Fin 4) * 1 ≤ (i 0).val
      ∧ (i 0).val < win1_3.index ⟨(i 0).val, _⟩ (0 : Fin 4) * 1 + 1
    omega
  | ⟨1, _⟩ =>
    show win1_3.index ⟨(i 0).val, _⟩ (1 : Fin 4) * 256 ≤ (i 1).val
      ∧ (i 1).val < win1_3.index ⟨(i 0).val, _⟩ (1 : Fin 4) * 256 + 256
    omega
  | ⟨2, _⟩ =>
    show win1_3.index ⟨(i 0).val, _⟩ (2 : Fin 4) * 56 ≤ (i 2).val
      ∧ (i 2).val < win1_3.index ⟨(i 0).val, _⟩ (2 : Fin 4) * 56 + 56
    omega
  | ⟨3, _⟩ =>
    show win1_3.index ⟨(i 0).val, _⟩ (3 : Fin 4) * 56 ≤ (i 3).val
      ∧ (i 3).val < win1_3.index ⟨(i 0).val, _⟩ (3 : Fin 4) * 56 + 56
    omega

end Cert.KernelIdeal.RegionValues

end
-- ==== Proof.RefSpec.lean ====
/-
  The reference program as ONE pure function of its four arguments.

  `reference x γ β gs`: the plane sums and plane sums of squares of `x` (a host sum over the two spatial axes), the
  shared host arithmetic of Spec.lean giving a scale and a shift per (sample, channel), both spread over the planes
  (two broadcasts each: [32,256] → [32,256,1,1] → [32,256,56,56]), and `x · scale + shift`.
-/
import proofs.«131879_j10307921511080_1_alg».proof.ReferenceIdeal
import proofs.«131879_j10307921511080_1_alg».proof.Proof.Spec

noncomputable section

namespace Cert.RaggedNorm

open Idealize.ShloMosaic

variable {F : FTy → Type} [FloatOps F] [Cert.KernelIdeal.Facts] [Cert.ReferenceIdeal.Facts]

/-- Per (sample, channel) the sum of the plane, by the host's reduction over the two spatial axes from zero. -/
def hostPlaneSum (x : Vec F Cert.ReferenceIdeal.S32x256x56x56 .f32) : Vec F Cert.ReferenceIdeal.S32x256 .f32 :=
  Host.reduceAdd x (constant Cert.ReferenceIdeal.S_ .f32 0x00000000#32)
    Cert.ReferenceIdeal.Facts₀.reducesTo_S32x256x56x56_S32x256_d2_3 Cert.ReferenceIdeal.Facts₀.h_S_

/-- One number per (sample, channel) spread over that channel's plane. -/
def overPlanes (a : Vec F Cert.ReferenceIdeal.S32x256 .f32) : Vec F Cert.ReferenceIdeal.S32x256x56x56 .f32 :=
  broadcastInDim Cert.ReferenceIdeal.S32x256x56x56 ![0, 1, 2, 3] Cert.ReferenceIdeal.Facts₀.bcast_S32x256x1x1_S32x256x56x56_0_1_2_3
    (broadcastInDim Cert.ReferenceIdeal.S32x256x1x1 ![0, 1] Cert.ReferenceIdeal.Facts₀.bcast_S32x256_S32x256x1x1_0_1 a)

/-- The reference's result from its arguments. -/
def reference (x : Vec F Cert.ReferenceIdeal.S32x256x56x56 .f32) (γ β : Vec F Cert.ReferenceIdeal.S32 .f32)
    (gs : Vec F Cert.ReferenceIdeal.S32 .i32) : Vec F Cert.ReferenceIdeal.S32x256x56x56 .f32 :=
  addf
    (mulf x (overPlanes (channelScale (hostPlaneSum x) (hostPlaneSum (mulf x x)) γ gs)))
    (overPlanes (channelShift (hostPlaneSum x) (hostPlaneSum (mulf x x)) γ β gs))

end Cert.RaggedNorm

end
-- ==== Proof.Bridge.lean ====
/-
  The three places where the two programs differ, read at an index over the extended reals.

  1. The per-channel sums.  The reference sums a plane with ONE host reduction over the two spatial axes: at
     (sample n, channel ch) that is zero plus the sum of `x` over all indices whose first two coordinates are (n, ch).
     Those indices are exactly the pairs (row, column), so the sum is the double sum `planeSumAt x n ch` — only the
     commutative-monoid structure of the extended reals is used, no finiteness.  The kernel's first launch leaves the
     same numbers in a [32,256,1,1] array, which a reshape reads back as the [32,256] table.
  2. Handing scale and shift to the second launch: the kernel reshapes a [32,256] table to [32,256,1,1]; the reference
     broadcasts it there and then on to [32,256,56,56].  At (n, ch, row, column) all of these read the table at (n, ch).
  3. The last step is `x · scale + shift` entry by entry on both sides.
-/
import proofs.«131879_j10307921511080_1_alg».proof.Proof.PlaneOps
import proofs.«131879_j10307921511080_1_alg».proof.Proof.RefSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.RaggedNorm

open Idealize.ShloMosaic Idealize.ShloMosaic.ValueIdx

/-- The shape of a per-(sample, channel) table. -/
abbrev Table : Shape := ⟨2, ![32, 256]⟩

/-- The plane sums as a table. -/
def planeTable (x : FVec Ideal Act .f32) : FVec Ideal Table .f32 := fun i => planeSumAt x (i 0) (i 1)
/-- The plane sums of squares as a table. -/
def planeSqTable (x : FVec Ideal Act .f32) : FVec Ideal Table .f32 := fun i => planeSumSqAt x (i 0) (i 1)

/-! ## One reduction over both spatial axes is the double sum -/

/-- The activation indices that a reduction over the spatial axes sends to (n, ch) are the (n, ch, row, column): the sum
    over them is the sum over the rows of the sum over the columns. -/
theorem sum_over_plane (hred : Act.ReducesTo [2, 3] Table) (f : Act.Idx → EReal) (n : Fin 32) (ch : Fin 256) :
    ∑ i ∈ Finset.univ.filter (fun i => hred.drop i = ix2 n ch), f i = ∑ h : Fin 56, ∑ w : Fin 56, f (ix4 n ch h w) := by
  have e0 : ∀ i : Act.Idx, (hred.drop i 0 : ℕ) = i 0 := fun i => hred.drop_apply_val_of_eq i 0 0
  have e1 : ∀ i : Act.Idx, (hred.drop i 1 : ℕ) = i 1 := fun i => hred.drop_apply_val_of_eq i 1 1
  rw [← Fintype.sum_prod_type' (f := fun (h : Fin 56) (w : Fin 56) => f (ix4 n ch h w))]
  refine Finset.sum_bij' (fun i _ => ((i 2 : Fin 56), (i 3 : Fin 56))) (fun p _ => ix4 n ch p.1 p.2)
    (fun _ _ => Finset.mem_univ _) ?_ ?_ (fun _ _ => rfl) ?_
  · intro p _
    refine Finset.mem_filter.mpr ⟨Finset.mem_univ _, ?_⟩
    funext b
    match b with
    | ⟨0, _⟩ => exact Fin.ext (e0 _)
    | ⟨1, _⟩ => exact Fin.ext (e1 _)
  · intro i hi
    have hi' := (Finset.mem_filter.mp hi).2
    have h0 : (i 0 : ℕ) = n := (e0 i).symm.trans (congrArg (fun j : Table.Idx => (j 0 : ℕ)) hi')
    have h1 : (i 1 : ℕ) = ch := (e1 i).symm.trans (congrArg (fun j : Table.Idx => (j 1 : ℕ)) hi')
    funext a
    match a with
    | ⟨0, _⟩ => exact Fin.ext h0.symm
    | ⟨1, _⟩ => exact Fin.ext h1.symm
    | ⟨2, _⟩ => rfl
    | ⟨3, _⟩ => rfl
  · intro i hi
    have hi' := (Finset.mem_filter.mp hi).2
    have h0 : (i 0 : ℕ) = n := (e0 i).symm.trans (congrArg (fun j : Table.Idx => (j 0 : ℕ)) hi')
    have h1 : (i 1 : ℕ) = ch := (e1 i).symm.trans (congrArg (fun j : Table.Idx => (j 1 : ℕ)) hi')
    refine congrArg f (funext fun a => ?_)
    match a with
    | ⟨0, _⟩ => exact Fin.ext h0
    | ⟨1, _⟩ => exact Fin.ext h1
    | ⟨2, _⟩ => rfl
    | ⟨3, _⟩ => rfl

/-! ## The reference's per-channel sums -/

section Reference

variable [Cert.KernelIdeal.Facts] [Cert.ReferenceIdeal.Facts]

/-- The host's sum over both spatial axes, from the zero word, at (n, ch) is the plane's sum. -/
theorem hostPlaneSum_apply (x : FVec Ideal Act .f32) (n : Fin 32) (ch : Fin 256) :
    hostPlaneSum (F := Ideal) x (ix2 n ch) = planeSumAt x n ch := by
  unfold hostPlaneSum
  rw [hostReduceAdd_apply]
  unfold Ideal.hostReduceAdd
  rw [sum_over_plane]
  show Ideal.ofBits .f32 0x00000000#32 + _ = _
  rw [Ideal.ofBits_zero_f32, zero_add]
  rfl

/-- As tables: the reference's sums are the plane sums … -/
theorem hostPlaneSum_eq (x : FVec Ideal Act .f32) : hostPlaneSum (F := Ideal) x = planeTable x := by
  funext i
  obtain ⟨n, ch, rfl⟩ : ∃ (n : Fin 32) (ch : Fin 256), i = ix2 n ch := ⟨i 0, i 1, eq_ix2 i⟩
  exact hostPlaneSum_apply x n ch

/-- … and its sums of the squared array are the plane sums of squares. -/
theorem hostPlaneSum_sq_eq (x : FVec Ideal Act .f32) : hostPlaneSum (F := Ideal) (mulf x x) = planeSqTable x := by
  funext i
  obtain ⟨n, ch, rfl⟩ : ∃ (n : Fin 32) (ch : Fin 256), i = ix2 n ch := ⟨i 0, i 1, eq_ix2 i⟩
  exact hostPlaneSum_apply (mulf x x) n ch

/-- A table spread over the planes reads, at (n, ch, row, column), the table at (n, ch). -/
theorem overPlanes_apply (a : FVec Ideal Table .f32) (n : Fin 32) (ch : Fin 256) (h w : Fin 56) :
    overPlanes (F := Ideal) a (ix4 n ch h w) = a (ix2 n ch) := by
  unfold overPlanes
  refine (broadcastInDim_apply _ _ _ (ix4 n ch h w) (ix4 n ch (0 : Fin 1) (0 : Fin 1)) fun ax => ?_).trans ?_
  · match ax with
    | ⟨0, _⟩ => rfl
    | ⟨1, _⟩ => rfl
    | ⟨2, _⟩ => rfl
    | ⟨3, _⟩ => rfl
  · refine broadcastInDim_apply _ _ a (ix4 n ch (0 : Fin 1) (0 : Fin 1)) (ix2 n ch) fun ax => ?_
    match ax with
    | ⟨0, _⟩ => rfl
    | ⟨1, _⟩ => rfl

end Reference

/-! ## Re-laying between [32,256] and [32,256,1,1] -/

/-- A table re-laid as a per-channel array reads the table at the first two coordinates. -/
theorem shapeCast_table_apply {α : Type} (a : Table.Idx → α) (hc : Table.ShapeCasts PerChan) (n : Fin 32) (ch : Fin 256)
    (u v : Fin 1) : shapeCast PerChan a hc (ix4 n ch u v) = a (ix2 n ch) :=
  shapeCast_apply a hc _ _ (by
    have hu : u.val = 0 := by omega
    have hv : v.val = 0 := by omega
    rw [Shape.rowMajor_val_two, Shape.rowMajor_val_four]
    show n.val * 256 + ch.val = ((n.val * 256 + ch.val) * 1 + u.val) * 1 + v.val
    omega)

/-- A per-channel array re-laid as a table reads it at the two unit coordinates 0, 0. -/
theorem shapeCast_perChan_apply {α : Type} (a : PerChan.Idx → α) (hc : PerChan.ShapeCasts Table) (n : Fin 32) (ch : Fin 256) :
    shapeCast Table a hc (ix2 n ch) = a (ix4 n ch (0 : Fin 1) (0 : Fin 1)) :=
  shapeCast_apply a hc _ _ (by
    rw [Shape.rowMajor_val_two, Shape.rowMajor_val_four]
    show ((n.val * 256 + ch.val) * 1 + 0) * 1 + 0 = n.val * 256 + ch.val
    omega)

/-- The first launch's array of sums, re-laid as a table, is the table of plane sums. -/
theorem reshape_planeSum (x : FVec Ideal Act .f32) (hc : PerChan.ShapeCasts Table) :
    shapeCast Table (planeSum x) hc = planeTable x := by
  funext i
  obtain ⟨n, ch, rfl⟩ : ∃ (n : Fin 32) (ch : Fin 256), i = ix2 n ch := ⟨i 0, i 1, eq_ix2 i⟩
  exact shapeCast_perChan_apply (planeSum x) hc n ch

/-- The same for the sums of squares. -/
theorem reshape_planeSumSq (x : FVec Ideal Act .f32) (hc : PerChan.ShapeCasts Table) :
    shapeCast Table (planeSumSq x) hc = planeSqTable x := by
  funext i
  obtain ⟨n, ch, rfl⟩ : ∃ (n : Fin 32) (ch : Fin 256), i = ix2 n ch := ⟨i 0, i 1, eq_ix2 i⟩
  exact shapeCast_perChan_apply (planeSumSq x) hc n ch

/-! ## The last step -/

section Last

variable [Cert.KernelIdeal.Facts] [Cert.ReferenceIdeal.Facts]

/-- `x · scale + shift` with the two tables spread over the planes is `affine` at the two tables re-laid as
    per-channel arrays: at every entry both read the tables at the entry's (sample, channel). -/
theorem spread_eq_affine (x : FVec Ideal Act .f32) (a b : FVec Ideal Table .f32) (hc : Table.ShapeCasts PerChan) :
    addf (mulf x (overPlanes (F := Ideal) a)) (overPlanes (F := Ideal) b)
      = affine x (shapeCast PerChan a hc) (shapeCast PerChan b hc) := by
  funext i
  obtain ⟨n, ch, h, w, rfl⟩ : ∃ (n : Fin 32) (ch : Fin 256) (h w : Fin 56), i = ix4 n ch h w :=
    ⟨i 0, i 1, i 2, i 3, eq_ix4 i⟩
  rw [affine_apply, shapeCast_table_apply, shapeCast_table_apply, addf_apply, mulf_apply, overPlanes_apply, overPlanes_apply]

/-- The reference's function is `affine` of `x` and the scale and shift computed from the plane sums, the sums taken
    as the first launch leaves them (per-channel arrays re-laid as tables) and the results re-laid as the second launch
    takes them. -/
theorem reference_eq (x : FVec Ideal Act .f32) (γ β : Vec Ideal Cert.KernelIdeal.S32 .f32) (gs : Vec Ideal Cert.KernelIdeal.S32 .i32)
    (h1 : PerChan.ShapeCasts Table) (h2 : Table.ShapeCasts PerChan) :
    reference (F := Ideal) x γ β gs
      = affine x
          (shapeCast PerChan (channelScale (F := Ideal) (shapeCast Table (planeSum x) h1) (shapeCast Table (planeSumSq x) h1) γ gs) h2)
          (shapeCast PerChan (channelShift (F := Ideal) (shapeCast Table (planeSum x) h1) (shapeCast Table (planeSumSq x) h1) γ β gs) h2) := by
  rw [reshape_planeSum, reshape_planeSumSq, ← hostPlaneSum_eq, ← hostPlaneSum_sq_eq]
  exact spread_eq_affine x _ _ h2

end Last

end Cert.RaggedNorm

end
-- ==== Proof.KernelValue.lean ====
/-
  The idealised kernel program's result as the reference's function of the arguments.

  Reading the run from the end: the result buffer holds the second launch's output array, which is `affine` of what
  that launch finds in its three operands; it finds `x` as launched and, in the other two, the per-channel scale and
  shift the host computed from the first launch's two output arrays; those are the plane sums and the plane sums of
  squares of `x`.  The reference computes the same scale and shift from its own plane sums (Bridge.lean), so the two
  results are one function of the four arguments.
-/
import proofs.«131879_j10307921511080_1_alg».proof.Proof.KernelRun
import proofs.«131879_j10307921511080_1_alg».proof.Proof.HostFold
import proofs.«131879_j10307921511080_1_alg».proof.Proof.RegionValues
import proofs.«131879_j10307921511080_1_alg».proof.Proof.Bridge
import proofs.«131879_j10307921511080_1_alg».proof.Proof.Gen.ReferenceIdeal

noncomputable section

namespace Cert.KernelIdeal.Value

open Idealize.ShloMosaic Idealize.ShloMosaic.TcCoe Idealize.SL.Sem
open Cert.KernelIdeal Cert.KernelIdeal.Gen Cert.RaggedNorm

variable (m : (ℓ : Loc nD τ sig) → Buf (Elt Ideal) ℓ) (ρ : Dev nD → PrngReg)

/-- The first launch's two output arrays are the plane sums and the plane sums of squares of `x` as launched. -/
theorem sums_are_planeSums (c : Dev nD) :
    W1 m ρ c (Proc.devRef .tc main_v0_0) = planeSum (m ((c : Thread nD τ).loc main_arg0)) :=
  (Run.sums_contents m ρ c).trans (RegionValues.sums_array (V0 m ρ) c)
theorem sumsqs_are_planeSumSqs (c : Dev nD) :
    W1 m ρ c (Proc.devRef .tc main_v0_1) = planeSumSq (m ((c : Thread nD τ).loc main_arg0)) :=
  (Run.sumsqs_contents m ρ c).trans (RegionValues.sumsqs_array (V0 m ρ) c)

/-- The result buffer at the end of the run is the reference's function of the four arguments as launched. -/
theorem result_is_reference (c : Dev nD) :
    W11 m ρ c (Proc.devRef .tc main_v68)
      = reference (F := Ideal) (m ((c : Thread nD τ).loc main_arg0)) (m ((c : Thread nD τ).loc main_arg1))
          (m ((c : Thread nD τ).loc main_arg2)) (m ((c : Thread nD τ).loc main_arg3)) := by
  rw [Run.result_contents, RegionValues.normalized_array (V10 m ρ) c, HostFold.x_contents, HostFold.scale_contents,
    HostFold.shift_contents, sums_are_planeSums, sumsqs_are_planeSumSqs]
  exact (reference_eq _ _ _ _ _ _).symm

end Cert.KernelIdeal.Value

end
-- ==== Proof.RefRun.lean ====
/- The reference program's run, written out: @main as ONE line of its 116 host operations, every call of a
   module-local function replaced by that function's operations over the call's own buffers, cut into seven
   consecutive pieces; the run read back (every weakly fair execution terminates with each buffer at the fold of
   the operations' results over the launch contents); the four arguments never written; and the result buffer's
   contents as ONE pure function of the arguments, read piece by piece.

   The arguments: `x` (32 samples × 256 channels × 56 × 56), a weight and a bias per group (32 each), and the 32
   group sizes `s`. The channels are cut into 32 consecutive groups, group `g` holding `s g` channels.

   * The channel → group table (operations 1 … 52). The sizes rolled by one place (`@_roll_static`: the last
     entry in front of the first thirty-one) with entry 0 then overwritten by 0 are `0, s 0, …, s 30`; their
     running sum (`@cumsum`: a window of 32 ending at each place, padded in front) is the first channel of each
     group. A negative start is wrapped by 256, and a vector of 256 zeros gets a 1 added at each start; its
     running sum (`@cumsum_1`, window 256) counts the groups that start at or before a channel, so that count
     less 1 is the channel's group. `@_take` reads `0, 1, …, 31` (the iota) at that index, a negative index
     wrapped by 32 (`@_where`'s select) and an index outside `0 … 31` answered by the least integer.
   * The per-channel sums (53 … 57): of `x` and of `x · x` over the two spatial axes, a 32 × 256 table each.
   * The group statistics (58 … 85): each table transposed and its rows added into a 32 × 32 table of zeros at
     the row the channel's group names, transposed back (sample × group); divided by the group's element count
     `s g · 3136` as a float these are the mean and the mean square; the variance is their difference with the
     squared mean, a small constant is added and the reciprocal square root taken.
   * Scale and shift (86 … 92): the weight times that root, and the bias less the mean times the scale, per
     sample and group.
   * Back per channel (93 … 112): the group table, a negative entry wrapped by 32, gathers scale and shift into
     32 × 256 tables, broadcast over the spatial axes.
   * The result (113 … 116): `x · scale + shift`. -/
import proofs.«131879_j10307921511080_1_alg».proof.Proof.Gen.ReferenceIdeal
import proofs.«131879_j10307921511080_1_alg».proof.Proof.Gen.KernelIdeal
import proofs.«131879_j10307921511080_1_alg».proof.Proof.RefSpec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in seven consecutive pieces -/

/-- Operations 1 … 11: the group numbers, and each group's first channel. -/
abbrev opsStart : List (HloOp τ sig (Elt F)) :=
  [ -- the group numbers 0 … 31
    nullary main_v0 (iotaInDim S32 32 0),
    -- @_roll_static on the sizes: the last entry, the first thirty-one, the last in front of them
    TRef.unary (.of main_arg3 : TRef sig ⟨S32, .i32⟩) main_call0.v0 (extractStridedSlice S1 ![31] · slices_S32_S1_31),
    TRef.unary (.of main_arg3 : TRef sig ⟨S32, .i32⟩) main_call0.v1 (extractStridedSlice S31 ![0] · slices_S32_S31_0),
    TRef.binary main_call0.v0 main_call0.v1 main_call0.v2 (fun a b => concatenate S32 0 [⟨S1, a⟩, ⟨S31, b⟩] concatenates_S1_S31_S32_d0),
    -- entry 0 overwritten by 0: the sizes shifted right by one place
    nullary main_c (constantI S_ 32 0#32),
    unary main_c main_v2 (broadcastInDim S1 ![] bcast_S_S1),
    nullary main_c_0 (constantI S_ 32 0#32),
    ternary main_v1 main_v2 main_c_0 main_v3 (fun x i u => Host.scatter scatter_S32_S1_S__n_0_0_0 (fun _ b => b) x i u),
    -- @cumsum (its body is @cumsum_0's): the running sum, each group's first channel
    TRef.nullary main_call1.call0.c (constantI S_ 32 0#32),
    TRef.unary main_call1.call0.c main_call1.call0.v0 (broadcastInDim S_ ![] bcast_S_S_),
    TRef.binary (.of main_v3) main_call1.call0.v0 main_call1.call0.v1 (fun x v => Host.reduceWindow IntOp.addi ![32] ![1] ![31] ![0] x v reduceWindows_S32_S32_w32s1p31_0 h_S_) ]

/-- Operations 12 … 30: for each channel, the position of its group. -/
abbrev opsPos : List (HloOp τ sig (Elt F)) :=
  [ -- 256 zeros; a negative start wrapped by 256; a 1 added at each start
    nullary main_c_1 (constantI S_ 32 0#32),
    unary main_c_1 main_v5 (broadcastInDim S256 ![] bcast_S_S256),
    nullary main_c_2 (constantI S_ 32 0#32),
    unary main_c_2 main_v6 (broadcastInDim S32 ![] bcast_S_S32),
    binary main_v4 main_v6 main_v7 (cmpi .slt),
    nullary main_c_3 (constantI S_ 32 256#32),
    unary main_c_3 main_v8 (broadcastInDim S32 ![] bcast_S_S32),
    binary main_v4 main_v8 main_v9 addi,
    ternary main_v7 main_v9 main_v4 main_v10 select,
    unary main_v10 main_v11 (broadcastInDim S32x1 ![0] bcast_S32_S32x1_0),
    nullary main_c_4 (constantI S_ 32 1#32),
    unary main_c_4 main_v12 (broadcastInDim S32 ![] bcast_S_S32),
    ternary main_v5 main_v11 main_v12 main_v13 (fun x i u => Host.scatter scatter_S256_S32x1_S32_n_0_0_1 IntOp.addi x i u),
    -- @cumsum_1 (its body is @cumsum_2's): how many groups start at or before each channel
    TRef.nullary main_call2.call0.c (constantI S_ 32 0#32),
    TRef.unary main_call2.call0.c main_call2.call0.v0 (broadcastInDim S_ ![] bcast_S_S_),
    TRef.binary (.of main_v13) main_call2.call0.v0 main_call2.call0.v1 (fun x v => Host.reduceWindow IntOp.addi ![256] ![1] ![255] ![0] x v reduceWindows_S256_S256_w256s1p255_0 h_S_),
    -- less 1: the channel's group, as an index
    nullary main_c_5 (constantI S_ 32 1#32),
    unary main_c_5 main_v15 (broadcastInDim S256 ![] bcast_S_S256),
    binary main_v14 main_v15 main_v16 subi ]

/-- Operations 31 … 37, the first seven of `@_take`: the positions, a negative one wrapped by 32. -/
abbrev opsWrap : List (HloOp τ sig (Elt F)) :=
  [ -- @_take of the group numbers at that index: a negative index wrapped by 32 (the select is @_where's body) …
    TRef.nullary main_call3.c (constantI S_ 32 0#32),
    TRef.unary main_call3.c main_call3.v0 (broadcastInDim S256 ![] bcast_S_S256),
    TRef.binary (.of main_v16) main_call3.v0 main_call3.v1 (cmpi .slt),
    TRef.nullary main_call3.c_0 (constantI S_ 32 32#32),
    TRef.unary main_call3.c_0 main_call3.v2 (broadcastInDim S256 ![] bcast_S_S256),
    TRef.binary (.of main_v16) main_call3.v2 main_call3.v3 addi,
    TRef.ternary main_call3.v1 main_call3.v3 (.of main_v16) main_call3.call0.v0 select ]

/-- Operations 38 … 52, the rest of `@_take`: the group numbers read at the wrapped positions, the channel → group table. -/
abbrev opsTake : List (HloOp τ sig (Elt F)) :=
  [ -- … the index as a column, whether it lies in 0 … 31, the entry gathered, the least integer where it does not
    TRef.unary main_call3.call0.v0 main_call3.v5 (broadcastInDim S256x1 ![0] bcast_S256_S256x1_0),
    TRef.nullary main_call3.c_1 (constantI S1 32 31#32),
    TRef.nullary main_call3.c_2 (constantI S_ 32 0#32),
    TRef.unary main_call3.c_2 main_call3.v6 (broadcastInDim S256x1 ![] bcast_S_S256x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S256x1 ![0, 1] bcast_S1x1_S256x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S256x1_S256_d1 h_S_),
    TRef.binary (.of main_v0) main_call3.v5 main_call3.v13 (fun x i => Host.gather gather_S32_S256x1_S256_n_0_n_n_0_1_1 x i),
    TRef.nullary main_call3.c_4 (constantI S_ 32 2147483648#32),
    TRef.unary main_call3.c_4 main_call3.v14 (broadcastInDim S256 ![] bcast_S_S256),
    TRef.ternary main_call3.v12 main_call3.v13 main_call3.v14 main_call3.v15 select ]

/-- Operations 53 … 57: the per-channel sums of `x` and of `x · x` over the two spatial axes. -/
abbrev opsSums : List (HloOp τ sig (Elt F)) :=
  [ -- the per-channel sums of x and of x · x over the two spatial axes
    nullary main_cst (constant S_ .f32 0x00000000#32),
    binary main_arg0 main_cst main_v18 (fun x v => Host.reduceAdd x v reducesTo_S32x256x56x56_S32x256_d2_3 h_S_),
    binary main_arg0 main_arg0 main_v19 mulf,
    nullary main_cst_6 (constant S_ .f32 0x00000000#32),
    binary main_v19 main_cst_6 main_v20 (fun x v => Host.reduceAdd x v reducesTo_S32x256x56x56_S32x256_d2_3 h_S_) ]

/-- Operations 58 … 92: the group statistics, the scale and the shift per sample and group. -/
abbrev opsStats : List (HloOp τ sig (Elt F)) :=
  [ -- the sums of x added up group by group: transposed, scattered into zeros at the group's row, transposed back
    unary main_v18 main_v21 (transpose S256x32 [1, 0] · transposes_S32x256_S256x32_1_0),
    nullary main_cst_7 (constant S_ .f32 0x00000000#32),
    unary main_cst_7 main_v22 (broadcastInDim S32x32 ![] bcast_S_S32x32),
    unary main_v17 main_v23 (broadcastInDim S256x1 ![0] bcast_S256_S256x1_0),
    ternary main_v22 main_v23 main_v21 main_v24 (fun x i u => Host.scatterAdd scatter_S32x32_S256x1_S256x32_1_0_0_1 x i u),
    unary main_v24 main_v25 (transpose S32x32 [1, 0] · transposes_S32x32_S32x32_1_0),
    -- the same for the sums of x · x
    unary main_v20 main_v26 (transpose S256x32 [1, 0] · transposes_S32x256_S256x32_1_0),
    nullary main_cst_8 (constant S_ .f32 0x00000000#32),
    unary main_cst_8 main_v27 (broadcastInDim S32x32 ![] bcast_S_S32x32),
    unary main_v17 main_v28 (broadcastInDim S256x1 ![0] bcast_S256_S256x1_0),
    ternary main_v27 main_v28 main_v26 main_v29 (fun x i u => Host.scatterAdd scatter_S32x32_S256x1_S256x32_1_0_0_1 x i u),
    unary main_v29 main_v30 (transpose S32x32 [1, 0] · transposes_S32x32_S32x32_1_0),
    -- each group's element count, size · 3136, as a float
    nullary main_c_9 (constantI S_ 32 3136#32),
    unary main_c_9 main_v31 (broadcastInDim S32 ![] bcast_S_S32),
    binary main_arg3 main_v31 main_v32 muli,
    unary main_v32 main_v33 (sitofp .f32),
    -- the mean and the mean square
    unary main_v33 main_v34 (broadcastInDim S1x32 ![1] bcast_S32_S1x32_1),
    unary main_v34 main_v35 (broadcastInDim S32x32 ![0, 1] bcast_S1x32_S32x32_0_1),
    binary main_v25 main_v35 main_v36 Host.divf,
    unary main_v33 main_v37 (broadcastInDim S1x32 ![1] bcast_S32_S1x32_1),
    unary main_v37 main_v38 (broadcastInDim S32x32 ![0, 1] bcast_S1x32_S32x32_0_1),
    binary main_v30 main_v38 main_v39 Host.divf,
    -- the variance, the small constant added, the reciprocal square root
    binary main_v36 main_v36 main_v40 mulf,
    binary main_v39 main_v40 main_v41 subf,
    nullary main_cst_10 (constant S_ .f32 0x3727C5AC#32),
    unary main_cst_10 main_v42 (broadcastInDim S32x32 ![] bcast_S_S32x32),
    binary main_v41 main_v42 main_v43 addf,
    unary main_v43 main_v44 Host.rsqrt,
    -- the scale: the group's weight times that root; the shift: the group's bias less the mean times the scale
    unary main_arg1 main_v45 (broadcastInDim S1x32 ![1] bcast_S32_S1x32_1),
    unary main_v45 main_v46 (broadcastInDim S32x32 ![0, 1] bcast_S1x32_S32x32_0_1),
    binary main_v46 main_v44 main_v47 mulf,
    binary main_v36 main_v47 main_v48 mulf,
    unary main_arg2 main_v49 (broadcastInDim S1x32 ![1] bcast_S32_S1x32_1),
    unary main_v49 main_v50 (broadcastInDim S32x32 ![0, 1] bcast_S1x32_S32x32_0_1),
    binary main_v50 main_v48 main_v51 subf ]

/-- Operations 93 … 116: scale and shift gathered back per channel, and `x · scale + shift`. -/
abbrev opsOut : List (HloOp τ sig (Elt F)) :=
  [ -- the scale back per channel: the group table, a negative entry wrapped by 32, gathers it
    nullary main_c_11 (constantI S_ 32 0#32),
    unary main_c_11 main_v52 (broadcastInDim S256 ![] bcast_S_S256),
    binary main_v17 main_v52 main_v53 (cmpi .slt),
    nullary main_c_12 (constantI S_ 32 32#32),
    unary main_c_12 main_v54 (broadcastInDim S256 ![] bcast_S_S256),
    binary main_v17 main_v54 main_v55 addi,
    ternary main_v53 main_v55 main_v17 main_v56 select,
    unary main_v56 main_v57 (broadcastInDim S256x1 ![0] bcast_S256_S256x1_0),
    binary main_v47 main_v57 main_v58 (fun x i => Host.gather gather_S32x32_S256x1_S32x256_0_1_n_n_1_1_321 x i),
    unary main_v58 main_v59 (broadcastInDim S32x256x1x1 ![0, 1] bcast_S32x256_S32x256x1x1_0_1),
    -- the shift back per channel, the same way
    nullary main_c_13 (constantI S_ 32 0#32),
    unary main_c_13 main_v60 (broadcastInDim S256 ![] bcast_S_S256),
    binary main_v17 main_v60 main_v61 (cmpi .slt),
    nullary main_c_14 (constantI S_ 32 32#32),
    unary main_c_14 main_v62 (broadcastInDim S256 ![] bcast_S_S256),
    binary main_v17 main_v62 main_v63 addi,
    ternary main_v61 main_v63 main_v17 main_v64 select,
    unary main_v64 main_v65 (broadcastInDim S256x1 ![0] bcast_S256_S256x1_0),
    binary main_v51 main_v65 main_v66 (fun x i => Host.gather gather_S32x32_S256x1_S32x256_0_1_n_n_1_1_321 x i),
    unary main_v66 main_v67 (broadcastInDim S32x256x1x1 ![0, 1] bcast_S32x256_S32x256x1x1_0_1),
    -- x · scale + shift, scale and shift broadcast over the spatial axes
    unary main_v59 main_v68 (broadcastInDim S32x256x56x56 ![0, 1, 2, 3] bcast_S32x256x1x1_S32x256x56x56_0_1_2_3),
    binary main_arg0 main_v68 main_v69 mulf,
    unary main_v67 main_v70 (broadcastInDim S32x256x56x56 ![0, 1, 2, 3] bcast_S32x256x1x1_S32x256x56x56_0_1_2_3),
    binary main_v69 main_v70 main_v71 addf ]

/-- The channel → group table's operations, 1 … 52. -/
abbrev opsTable : List (HloOp τ sig (Elt F)) := opsStart ++ opsPos ++ opsWrap ++ opsTake

/-- @main's 116 operations, in order, each call's body listed at its call site over that call's buffers. -/
abbrev ops : List (HloOp τ sig (Elt F)) := opsTable ++ opsSums ++ opsStats ++ opsOut

-- 116 binds re-associated: the rewrite under the chain recurses once per statement
set_option maxRecDepth 8192 in
set_option maxHeartbeats 4000000 in
/-- @main is that straight line: its two windows one after the other, the functions' definitions unfolded at
    their calls (a function that only calls another unfolds twice) and the records at their fields; the pieces
    joined into one list; both sides are then one chain of `hlo` steps once sequencing is reassociated
    (`bind_assoc`, `pure_bind`). -/
theorem main_eq (c : Dev nD) : main (F := F) c = seq ops := by
  simp only [main, main_part0, main_part1, fn_roll_static.body, fn_cumsum.body, fn_cumsum_0.body, fn_cumsum_1.body,
    fn_cumsum_2.body, fn_take.body, fn_where.body, ops, opsTable, opsStart, opsPos, opsWrap, opsTake, opsSums, opsStats,
    opsOut, List.cons_append, List.nil_append, seq, bind_assoc, pure_bind]
  rfl

/-- The signature scopes no buffer and no semaphore (a host-only program has no kernel region). -/
theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only: one fact per entry of `ops`, by its arity. -/
theorem ops_sub : (ops : List (HloOp τ sig (Elt F))).Forall fun op => op.bufs ⊆ tcRefs τ sig := by
  simp only [ops, opsTable, opsStart, opsPos, opsWrap, opsTake, opsSums, opsStats, opsOut, List.cons_append, List.nil_append]
  exact
    ⟨nullary_bufs_sub .., unary_bufs_sub .., unary_bufs_sub .., binary_bufs_sub .., nullary_bufs_sub .., unary_bufs_sub ..,
      nullary_bufs_sub .., ternary_bufs_sub .., nullary_bufs_sub .., unary_bufs_sub .., binary_bufs_sub .., nullary_bufs_sub ..,
      unary_bufs_sub .., nullary_bufs_sub .., unary_bufs_sub .., binary_bufs_sub .., nullary_bufs_sub .., unary_bufs_sub ..,
      binary_bufs_sub .., ternary_bufs_sub .., unary_bufs_sub .., nullary_bufs_sub .., unary_bufs_sub .., ternary_bufs_sub ..,
      nullary_bufs_sub .., unary_bufs_sub .., binary_bufs_sub .., nullary_bufs_sub .., unary_bufs_sub .., binary_bufs_sub ..,
      nullary_bufs_sub .., unary_bufs_sub .., binary_bufs_sub .., nullary_bufs_sub .., unary_bufs_sub .., binary_bufs_sub ..,
      ternary_bufs_sub .., unary_bufs_sub .., nullary_bufs_sub .., nullary_bufs_sub .., unary_bufs_sub .., binary_bufs_sub ..,
      unary_bufs_sub .., unary_bufs_sub .., binary_bufs_sub .., binary_bufs_sub .., nullary_bufs_sub .., binary_bufs_sub ..,
      binary_bufs_sub .., nullary_bufs_sub .., unary_bufs_sub .., ternary_bufs_sub .., nullary_bufs_sub .., binary_bufs_sub ..,
      binary_bufs_sub .., nullary_bufs_sub .., binary_bufs_sub .., unary_bufs_sub .., nullary_bufs_sub .., unary_bufs_sub ..,
      unary_bufs_sub .., ternary_bufs_sub .., unary_bufs_sub .., unary_bufs_sub .., nullary_bufs_sub .., unary_bufs_sub ..,
      unary_bufs_sub .., ternary_bufs_sub .., unary_bufs_sub .., nullary_bufs_sub .., unary_bufs_sub .., binary_bufs_sub ..,
      unary_bufs_sub .., unary_bufs_sub .., unary_bufs_sub .., binary_bufs_sub .., unary_bufs_sub .., unary_bufs_sub ..,
      binary_bufs_sub .., binary_bufs_sub .., binary_bufs_sub .., nullary_bufs_sub .., unary_bufs_sub .., binary_bufs_sub ..,
      unary_bufs_sub .., unary_bufs_sub .., unary_bufs_sub .., binary_bufs_sub .., binary_bufs_sub .., unary_bufs_sub ..,
      unary_bufs_sub .., binary_bufs_sub .., nullary_bufs_sub .., unary_bufs_sub .., binary_bufs_sub .., nullary_bufs_sub ..,
      unary_bufs_sub .., binary_bufs_sub .., ternary_bufs_sub .., unary_bufs_sub .., binary_bufs_sub .., unary_bufs_sub ..,
      nullary_bufs_sub .., unary_bufs_sub .., binary_bufs_sub .., nullary_bufs_sub .., unary_bufs_sub .., binary_bufs_sub ..,
      ternary_bufs_sub .., unary_bufs_sub .., binary_bufs_sub .., unary_bufs_sub .., unary_bufs_sub .., binary_bufs_sub ..,
      unary_bufs_sub .., binary_bufs_sub ..⟩

/-- On every device, for any float values, from any memory with zero counters: every weakly fair execution of
    @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines one after the other is the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## What a piece does not write

Each operation writes the one buffer it names last; a buffer that is none of those keeps its contents through the
piece (`after_of_forall_not_mem`), the references' inequalities by computation. -/

/-- Closes `after l U b = U b` for the literal line named by the given definitions, none of whose operations
    writes `b`. -/
local macro "kept " "[" ds:ident,* "]" : tactic => `(tactic| (
  refine after_of_forall_not_mem _ _ (List.forall_iff_forall_mem.mp ?_)
  simp only [$[$ds:ident],*, List.cons_append, List.nil_append, List.Forall, nullary_writes, unary_writes, binary_writes,
    ternary_writes, Finset.mem_singleton]
  repeat' apply And.intro
  all_goals exact devRef_ne_of_ne (by decide)))

section Kept
variable (U : Valuation τ sig (Elt F))

-- the table's pieces: the group numbers `%0` stay while the positions are computed and wrapped
theorem pos_v0 : after opsPos U (main_v0 : DevRef τ sig) = U (main_v0 : DevRef τ sig) := by kept [opsPos]
theorem wrap_v0 : after opsWrap U (main_v0 : DevRef τ sig) = U (main_v0 : DevRef τ sig) := by kept [opsWrap]
-- the table's 52 operations write no argument
theorem table_arg0 : after opsTable U (main_arg0 : DevRef τ sig) = U (main_arg0 : DevRef τ sig) := by
  kept [opsTable, opsStart, opsPos, opsWrap, opsTake]
theorem table_arg1 : after opsTable U (main_arg1 : DevRef τ sig) = U (main_arg1 : DevRef τ sig) := by
  kept [opsTable, opsStart, opsPos, opsWrap, opsTake]
theorem table_arg2 : after opsTable U (main_arg2 : DevRef τ sig) = U (main_arg2 : DevRef τ sig) := by
  kept [opsTable, opsStart, opsPos, opsWrap, opsTake]
theorem table_arg3 : after opsTable U (main_arg3 : DevRef τ sig) = U (main_arg3 : DevRef τ sig) := by
  kept [opsTable, opsStart, opsPos, opsWrap, opsTake]
-- the sums write neither the table nor an argument
theorem sums_v17 : after opsSums U (main_v17 : DevRef τ sig) = U (main_v17 : DevRef τ sig) := by kept [opsSums]
theorem sums_arg0 : after opsSums U (main_arg0 : DevRef τ sig) = U (main_arg0 : DevRef τ sig) := by kept [opsSums]
theorem sums_arg1 : after opsSums U (main_arg1 : DevRef τ sig) = U (main_arg1 : DevRef τ sig) := by kept [opsSums]
theorem sums_arg2 : after opsSums U (main_arg2 : DevRef τ sig) = U (main_arg2 : DevRef τ sig) := by kept [opsSums]
theorem sums_arg3 : after opsSums U (main_arg3 : DevRef τ sig) = U (main_arg3 : DevRef τ sig) := by kept [opsSums]
-- the statistics write neither the table nor `x`
theorem stats_v17 : after opsStats U (main_v17 : DevRef τ sig) = U (main_v17 : DevRef τ sig) := by kept [opsStats]
theorem stats_arg0 : after opsStats U (main_arg0 : DevRef τ sig) = U (main_arg0 : DevRef τ sig) := by kept [opsStats]

end Kept

/-! ## What each piece leaves, from ANY contents `U`

Each piece is read by itself: from arbitrary contents `U` (so whatever an earlier piece wrote is just `U` at that
buffer), the few buffers a later piece reads hold the shared host functions of the buffers the piece itself reads.
The fold is unrolled, each operation's result at the buffer it writes is its function of its operands' contents
and at any other buffer what was there; what is left is the piece's operations composed, which is the named
function unfolded. The reductions, gathers and scatters stay folded throughout: nothing here looks inside them. -/

attribute [local irreducible] Host.reduce Host.reduceAdd Host.reduceWindow Host.gather Host.scatter Host.scatterAdd

/-- After the first piece the buffer of `%4` holds each group's first channel: the sizes rolled, entry 0
    overwritten by 0, summed cumulatively. -/
theorem start_v4 (U : Valuation τ sig (Elt F)) :
    after opsStart U (main_v4 : DevRef τ sig) = Cert.RaggedNorm.groupStart (U (main_arg3 : DevRef τ sig)) := by
  dsimp only [opsStart]
  after_results
  rfl

/-- … and the buffer of `%0` the group numbers. -/
theorem start_v0 (U : Valuation τ sig (Elt F)) :
    after opsStart U (main_v0 : DevRef τ sig) = iotaInDim S32 32 0 := by
  dsimp only [opsStart]
  after_results

/-- After the second piece, from contents whose `%4` holds the groups' first channels, `%16` holds each
    channel's group position: the starts wrapped by 256, a 1 added at each in 256 zeros, summed cumulatively,
    less 1. -/
theorem pos_v16 (U : Valuation τ sig (Elt F)) (gs : Vec F S32 .i32)
    (h : U (main_v4 : DevRef τ sig) = Cert.RaggedNorm.groupStart gs) :
    after opsPos U (main_v16 : DevRef τ sig) = Cert.RaggedNorm.groupPos gs := by
  dsimp only [opsPos]
  after_results
  rw [h]
  rfl

/-- After `@_take`'s first seven operations the buffer of its `%4` (`@_where`'s result) holds the positions,
    a negative one wrapped by 32. -/
theorem wrap_v4 (U : Valuation τ sig (Elt F)) :
    after opsWrap U (main_call3_v4 : DevRef τ sig) = Cert.RaggedNorm.wrap256 32#32 (U (main_v16 : DevRef τ sig)) := by
  dsimp only [opsWrap]
  after_results
  rfl

/-- After the rest of `@_take`, from contents whose wrapped positions are those of `pos`, `%17` holds the
    table `%0` read at `pos`: whether the wrapped position lies in 0 … 31, the entry gathered there, the least
    integer elsewhere. -/
theorem take_v17 (U : Valuation τ sig (Elt F)) (pos : Vec F S256 .i32)
    (h : U (main_call3_v4 : DevRef τ sig) = Cert.RaggedNorm.wrap256 32#32 pos) :
    after opsTake U (main_v17 : DevRef τ sig) = Cert.RaggedNorm.take32 (U (main_v0 : DevRef τ sig)) pos := by
  dsimp only [opsTake]
  after_results
  rw [h]
  rfl

/-- After the sums' piece, `%18` holds the plane sums of `x` … -/
theorem sums_v18 (U : Valuation τ sig (Elt F)) :
    after opsSums U (main_v18 : DevRef τ sig) = Cert.RaggedNorm.hostPlaneSum (U (main_arg0 : DevRef τ sig)) := by
  dsimp only [opsSums]
  after_results
  rfl

/-- … and `%20` the plane sums of `x · x`. -/
theorem sums_v20 (U : Valuation τ sig (Elt F)) :
    after opsSums U (main_v20 : DevRef τ sig)
      = Cert.RaggedNorm.hostPlaneSum (mulf (U (main_arg0 : DevRef τ sig)) (U (main_arg0 : DevRef τ sig))) := by
  dsimp only [opsSums]
  after_results
  rfl

set_option maxRecDepth 4096 in
/-- After the statistics' piece, `%47` holds the scale per sample and group: from the table `%17`, the plane
    sums `%18` and `%20`, the weights and the sizes. -/
theorem stats_v47 (U : Valuation τ sig (Elt F)) :
    after opsStats U (main_v47 : DevRef τ sig)
      = Cert.RaggedNorm.groupScale (U (main_v17 : DevRef τ sig)) (U (main_v18 : DevRef τ sig)) (U (main_v20 : DevRef τ sig))
          (U (main_arg1 : DevRef τ sig)) (U (main_arg3 : DevRef τ sig)) := by
  dsimp only [opsStats]
  after_results_simp
  rfl

set_option maxRecDepth 4096 in
/-- … and `%51` the shift: the bias less the mean times that scale. -/
theorem stats_v51 (U : Valuation τ sig (Elt F)) :
    after opsStats U (main_v51 : DevRef τ sig)
      = Cert.RaggedNorm.groupShift (U (main_v17 : DevRef τ sig)) (U (main_v18 : DevRef τ sig)) (U (main_v20 : DevRef τ sig))
          (U (main_arg1 : DevRef τ sig)) (U (main_arg2 : DevRef τ sig)) (U (main_arg3 : DevRef τ sig)) := by
  dsimp only [opsStats]
  after_results_simp
  rfl

set_option maxRecDepth 4096 in
/-- After the last piece, `%71` holds `x · scale + shift`, scale and shift read per channel through the table
    `%17` from the per-group tables `%47` and `%51` and spread over the planes. -/
theorem out_v71 (U : Valuation τ sig (Elt F)) :
    after opsOut U (main_v71 : DevRef τ sig)
      = addf
          (mulf (U (main_arg0 : DevRef τ sig))
            (Cert.RaggedNorm.overPlanes (Cert.RaggedNorm.perChannel (U (main_v17 : DevRef τ sig)) (U (main_v47 : DevRef τ sig)))))
          (Cert.RaggedNorm.overPlanes (Cert.RaggedNorm.perChannel (U (main_v17 : DevRef τ sig)) (U (main_v51 : DevRef τ sig)))) := by
  dsimp only [opsOut]
  after_results_simp
  rfl

/-! ## The pieces composed -/

/-- After the table's four pieces, `%17` holds the channel → group table of the sizes: the starts from the
    sizes, the positions from the starts, the positions wrapped, the group numbers (still in `%0`) read there. -/
theorem table_v17 (V : Valuation τ sig (Elt F)) :
    after opsTable V (main_v17 : DevRef τ sig) = Cert.RaggedNorm.groupOf (V (main_arg3 : DevRef τ sig)) := by
  simp only [opsTable, after_append]
  rw [take_v17 _ _ (wrap_v4 _), wrap_v0, pos_v0, start_v0, pos_v16 _ _ (start_v4 V)]
  rfl

/-- The result buffer after the whole line is the reference function of the four arguments: the last piece's
    value over what the statistics left, those over the sums and the table, those over the arguments — each
    buffer a later piece reads either written by the piece before (its stage lemma) or carried through it
    unchanged. -/
theorem result_eq (V : Valuation τ sig (Elt F)) :
    after ops V (main_v71 : DevRef τ sig)
      = Cert.RaggedNorm.reference (V (main_arg0 : DevRef τ sig)) (V (main_arg1 : DevRef τ sig))
          (V (main_arg2 : DevRef τ sig)) (V (main_arg3 : DevRef τ sig)) := by
  -- the line is the table's piece, the sums', the statistics' and the last one: three cuts
  show after (opsTable ++ opsSums ++ opsStats ++ opsOut) V _ = _
  rw [after_append, after_append, after_append]
  rw [out_v71, stats_v47, stats_v51, stats_arg0, stats_v17,
    sums_v18, sums_v20, sums_v17, sums_arg0, sums_arg1, sums_arg2, sums_arg3,
    table_v17, table_arg0, table_arg1, table_arg2, table_arg3]
  rfl

/-! No operation writes an argument. -/

theorem arg0_kept (V : Valuation τ sig (Elt F)) : after ops V (main_arg0 : DevRef τ sig) = V (main_arg0 : DevRef τ sig) := by
  kept [ops, opsTable, opsStart, opsPos, opsWrap, opsTake, opsSums, opsStats, opsOut]
theorem arg1_kept (V : Valuation τ sig (Elt F)) : after ops V (main_arg1 : DevRef τ sig) = V (main_arg1 : DevRef τ sig) := by
  kept [ops, opsTable, opsStart, opsPos, opsWrap, opsTake, opsSums, opsStats, opsOut]
theorem arg2_kept (V : Valuation τ sig (Elt F)) : after ops V (main_arg2 : DevRef τ sig) = V (main_arg2 : DevRef τ sig) := by
  kept [ops, opsTable, opsStart, opsPos, opsWrap, opsTake, opsSums, opsStats, opsOut]
theorem arg3_kept (V : Valuation τ sig (Elt F)) : after ops V (main_arg3 : DevRef τ sig) = V (main_arg3 : DevRef τ sig) := by
  kept [ops, opsTable, opsStart, opsPos, opsWrap, opsTake, opsSums, opsStats, opsOut]

end Cert.ReferenceIdeal.HandRun

end
-- ==== Proof.lean ====
/-
  Ragged-group normalisation: the kernel program against its reference, over the extended reals.

  The 256 channels of an activation array x : [32, 256, 56, 56] are cut into 32 consecutive groups whose sizes are an
  input; every (sample, group) is normalised to mean 0 and variance 1 (plus ε) and given a per-group scale γ and
  shift β.  Both programs compute

      out = x · scale_c + shift_c,     scale = γ · rsqrt(sumsq/count − mean² + ε),   shift = β − mean · scale,

  where mean = sum/count, sum and sumsq are the group sums of the per-channel plane sums of x and of x², and scale_c,
  shift_c read the group's numbers at each channel.

  The kernel program takes the plane sums in a first launch (per sample: the sum over the columns, then over the rows),
  does the small group arithmetic on the host, and applies x · scale_c + shift_c in a second launch.  The reference does
  everything on the host, summing each plane by one reduction over both spatial axes.  The group arithmetic is the same
  text in both programs (Spec.lean) and is never opened.  What is proved:

  * the first launch's outputs are the plane sums (RegionValues.lean), and one reduction over both axes is the same double
    sum (Bridge.lean: only commutativity and associativity of + on the extended reals, so no finiteness is used);
  * a [32,256] table reshaped to [32,256,1,1] (kernel) and broadcast there (reference) read the same entries, and the second
    launch's body is x · a + b entry by entry (RegionValues.lean, Bridge.lean);
  * the host operations between the launches are Spec.lean's functions of the first launch's outputs (HostFold.lean), and
    the reference's whole @main is the function `reference` of its arguments (RefRun.lean).

  The three frame claims are the generated frames (the reference's: its run with the result dropped); no rewrite was
  applied by the idealisation, so `preserves` is trivial.
-/
import proofs.«131879_j10307921511080_1_alg».proof.Defs
import proofs.«131879_j10307921511080_1_alg».proof.Proof.Gen.Kernel
import proofs.«131879_j10307921511080_1_alg».proof.Proof.Gen.Kernel.Frame
import proofs.«131879_j10307921511080_1_alg».proof.Proof.Gen.KernelIdeal
import proofs.«131879_j10307921511080_1_alg».proof.Proof.Gen.KernelIdeal.Frame
import proofs.«131879_j10307921511080_1_alg».proof.Proof.Gen.ReferenceIdeal
import proofs.«131879_j10307921511080_1_alg».proof.Proof.Gen.Pre_finite_inputs
import proofs.«131879_j10307921511080_1_alg».proof.Proof.KernelRun
import proofs.«131879_j10307921511080_1_alg».proof.Proof.KernelValue
import proofs.«131879_j10307921511080_1_alg».proof.Proof.RefRun

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealised kernel program likewise. -/
theorem frame_kernelIdeal : Cert.frame_KernelIdeal := fun m ρ _ => Cert.KernelIdeal.Gen.frame m ρ

/-- The reference is host operations only: its run leaves every buffer at the operations' fold over the launch
    contents, and no operation writes an argument. -/
theorem frame_reference : Cert.frame_ReferenceIdeal := fun m ρ _ =>
  (θ_run Cert.ReferenceIdeal.defs _ _).mono
    (fun _ h c =>
      ⟨(h c Cert.ReferenceIdeal.main_arg0).trans (Cert.ReferenceIdeal.HandRun.arg0_kept _),
       (h c Cert.ReferenceIdeal.main_arg1).trans (Cert.ReferenceIdeal.HandRun.arg1_kept _),
       (h c Cert.ReferenceIdeal.main_arg2).trans (Cert.ReferenceIdeal.HandRun.arg2_kept _),
       (h c Cert.ReferenceIdeal.main_arg3).trans (Cert.ReferenceIdeal.HandRun.arg3_kept _)⟩)
    (Cert.ReferenceIdeal.HandRun.run_main (F := Ideal) m ρ)

/-- The idealisation rewrote nothing. -/
theorem preserves : Cert.preserves_Kernel_KernelIdeal := trivial

/-- From memories that agree on the arguments both idealised programs end with the result
    `reference x γ β gs` of the arguments: the kernel program by reading its run back (KernelValue.lean), the
    reference because that function is its @main. -/
theorem algebraic : Cert.algebraic_KernelIdeal_ReferenceIdeal := by
  intro m ρ m' ρ' _ hagree
  refine ⟨fun c => Cert.RaggedNorm.reference (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Value.result_is_reference m ρ c), (h c).2⟩)
      (Cert.KernelIdeal.Run.run_result (F := Ideal) m ρ)
  · refine (θ_run Cert.ReferenceIdeal.defs _ _).mono (fun _ h c => ⟨?_,
        (h c Cert.ReferenceIdeal.main_arg0).trans (Cert.ReferenceIdeal.HandRun.arg0_kept _),
        (h c Cert.ReferenceIdeal.main_arg1).trans (Cert.ReferenceIdeal.HandRun.arg1_kept _),
        (h c Cert.ReferenceIdeal.main_arg2).trans (Cert.ReferenceIdeal.HandRun.arg2_kept _),
        (h c Cert.ReferenceIdeal.main_arg3).trans (Cert.ReferenceIdeal.HandRun.arg3_kept _)⟩)
      (Cert.ReferenceIdeal.HandRun.run_main (F := Ideal) m' ρ')
    refine ((h c Cert.ReferenceIdeal.main_v71).trans (Cert.ReferenceIdeal.HandRun.result_eq _)).trans ?_
    -- the launch contents at an argument are the memory there, and the two memories agree on the arguments
    show Cert.RaggedNorm.reference (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.RaggedNorm.reference (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
